-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1200000 : Shape := ⟨2, ![2, 1200000]⟩
abbrev S6x64 : Shape := ⟨2, ![6, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64x64 .f32) (main_arg9 : FVec F S64 .f32) (main_arg10 : FVec F S64x64 .f32) (main_arg11 : FVec F S64 .f32) (main_arg12 : FVec F S64x1 .f32) (main_arg13 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x6 .f32) (main_arg1 : IVec S2x1200000 32) (main_arg2 : FVec F S6x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x64 .f32 := Host.absf main_arg2
  let main_cst_0 : FVec F S_ .f32 := constant S_ .f32 0x7F800000#32
  let main_v5 : FVec F S6x64 .f32 := broadcastInDim S6x64 ![] bcast_S_S6x64 main_cst_0
  let main_v6 : IVec S6x64 1 := cmpf .olt main_v4 main_v5
  let main_c_1 : IVec S_ 1 := constantI S_ 1 1#1
  let main_v7 : IVec S_ 1 := (fun x v => Host.reduce IntOp.andi x v reducesTo_S6x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x6 : Shape := ⟨2, ![100000, 6]⟩
abbrev S2x1200000 : Shape := ⟨2, ![2, 1200000]⟩
abbrev S6x64 : Shape := ⟨2, ![6, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x6 : Shape := ⟨2, ![1200000, 6]⟩
abbrev S1x64 : Shape := ⟨2, ![1, 64]⟩
abbrev S100000x64 : Shape := ⟨2, ![100000, 64]⟩
abbrev S10000x6 : Shape := ⟨2, ![10000, 6]⟩
abbrev S10000x64 : Shape := ⟨2, ![10000, 64]⟩
abbrev S1200000x64 : Shape := ⟨2, ![1200000, 64]⟩
abbrev S1x1 : Shape := ⟨2, ![1, 1]⟩
abbrev S10000x1 : Shape := ⟨2, ![10000, 1]⟩

abbrev nBuf : Space → Nat
  | .hbm => 134
  | .vmem => 44
  | .smem => 0
  | _ => 0

abbrev hbmTy0_0 (i : Nat) : BufTy := match i % 128 with
  | 0 => ⟨S100000x6, .f32⟩
  | 1 => ⟨S2x1200000, .i32⟩
  | 2 => ⟨S6x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x1, .f32⟩
  | 13 => ⟨S1, .f32⟩
  | 14 => ⟨S1x1200000, .i32⟩
  | 15 => ⟨S1200000, .i32⟩
  | 16 => ⟨S1x1200000, .i32⟩
  | 17 => ⟨S1200000, .i32⟩
  | 18 => ⟨S_, .f32⟩
  | 19 => ⟨S1200000, .f32⟩
  | 20 => ⟨S_, .f32⟩
  | 21 => ⟨S100000, .f32⟩
  | 22 => ⟨S1200000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S_, .i32⟩
  | 32 => ⟨S1200000, .i32⟩
  | 33 => ⟨S1200000, .i1⟩
  | 34 => ⟨S_, .i32⟩
  | 35 => ⟨S1200000, .i32⟩
  | 36 => ⟨S1200000, .i32⟩
  | 37 => ⟨S1200000, .i32⟩
  | 38 => ⟨S1200000x1, .i32⟩
  | 39 => ⟨S1200000x6, .f32⟩
  | 40 => ⟨S_, .f32⟩
  | 41 => ⟨S100000x6, .f32⟩
  | 42 => ⟨S1200000x1, .i32⟩
  | 43 => ⟨S100000x6, .f32⟩
  | 44 => ⟨S100000x6, .f32⟩
  | 45 => ⟨S100000x6, .f32⟩
  | 46 => ⟨S1x64, .f32⟩
  | 47 => ⟨S100000x64, .f32⟩
  | 48 => ⟨S_, .i32⟩
  | 49 => ⟨S1200000, .i32⟩
  | 50 => ⟨S1200000, .i1⟩
  | 51 => ⟨S_, .i32⟩
  | 52 => ⟨S1200000, .i32⟩
  | 53 => ⟨S1200000, .i32⟩
  | 54 => ⟨S1200000, .i32⟩
  | 55 => ⟨S1200000x1, .i32⟩
  | 56 => ⟨S1200000x64, .f32⟩
  | 57 => ⟨S_, .f32⟩
  | 58 => ⟨S100000x64, .f32⟩
  | 59 => ⟨S1200000x1, .i32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S_, .i32⟩
  | 66 => ⟨S1200000, .i32⟩
  | 67 => ⟨S1200000, .i1⟩
  | 68 => ⟨S_, .i32⟩
  | 69 => ⟨S1200000, .i32⟩
  | 70 => ⟨S1200000, .i32⟩
  | 71 => ⟨S1200000, .i32⟩
  | 72 => ⟨S1200000x1, .i32⟩
  | 73 => ⟨S1200000x64, .f32⟩
  | 74 => ⟨S_, .f32⟩
  | 75 => ⟨S100000x64, .f32⟩
  | 76 => ⟨S1200000x1, .i32⟩
  | 77 => ⟨S100000x64, .f32⟩
  | 78 => ⟨S100000x64, .f32⟩
  | 79 => ⟨S100000x64, .f32⟩
  | 80 => ⟨S1x64, .f32⟩
  | 81 => ⟨S100000x64, .f32⟩
  | 82 => ⟨S_, .i32⟩
  | 83 => ⟨S1200000, .i32⟩
  | 84 => ⟨S1200000, .i1⟩
  | 85 => ⟨S_, .i32⟩
  | 86 => ⟨S1200000, .i32⟩
  | 87 => ⟨S1200000, .i32⟩
  | 88 => ⟨S1200000, .i32⟩
  | 89 => ⟨S1200000x1, .i32⟩
  | 90 => ⟨S1200000x64, .f32⟩
  | 91 => ⟨S_, .f32⟩
  | 92 => ⟨S100000x64, .f32⟩
  | 93 => ⟨S1200000x1, .i32⟩
  | 94 => ⟨S100000x64, .f32⟩
  | 95 => ⟨S100000x64, .f32⟩
  | 96 => ⟨S100000x64, .f32⟩
  | 97 => ⟨S1x64, .f32⟩
  | 98 => ⟨S100000x64, .f32⟩
  | 99 => ⟨S_, .i32⟩
  | 100 => ⟨S1200000, .i32⟩
  | 101 => ⟨S1200000, .i1⟩
  | 102 => ⟨S_, .i32⟩
  | 103 => ⟨S1200000, .i32⟩
  | 104 => ⟨S1200000, .i32⟩
  | 105 => ⟨S1200000, .i32⟩
  | 106 => ⟨S1200000x1, .i32⟩
  | 107 => ⟨S1200000x64, .f32⟩
  | 108 => ⟨S_, .f32⟩
  | 109 => ⟨S100000x64, .f32⟩
  | 110 => ⟨S1200000x1, .i32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S_, .i32⟩
  | 117 => ⟨S1200000, .i32⟩
  | 118 => ⟨S1200000, .i1⟩
  | 119 => ⟨S_, .i32⟩
  | 120 => ⟨S1200000, .i32⟩
  | 121 => ⟨S1200000, .i32⟩
  | 122 => ⟨S1200000, .i32⟩
  | 123 => ⟨S1200000x1, .i32⟩
  | 124 => ⟨S1200000x64, .f32⟩
  | 125 => ⟨S_, .f32⟩
  | 126 => ⟨S100000x64, .f32⟩
  | 127 => ⟨S1200000x1, .i32⟩
  | _ => ⟨S100000x6, .f32⟩

abbrev hbmTy0_1 (i : Nat) : BufTy := match i % 128 with
  | 0 => ⟨S100000x64, .f32⟩
  | 1 => ⟨S100000x64, .f32⟩
  | 2 => ⟨S100000x64, .f32⟩
  | 3 => ⟨S1x1, .f32⟩
  | 4 => ⟨S100000x1, .f32⟩
  | 5 => ⟨S100000, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | .local _ .vmem, ⟨0, _⟩ => ⟨S10000x6, .f32⟩
  | .local _ .vmem, ⟨1, _⟩ => ⟨S10000x6, .f32⟩
  | .local _ .vmem, ⟨2, _⟩ => ⟨S6x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x1, .f32⟩
  | .local _ .vmem, ⟨41, _⟩ => ⟨S1x1, .f32⟩
  | .local _ .vmem, ⟨42, _⟩ => ⟨S10000x1, .f32⟩
  | .local _ .vmem, ⟨43, _⟩ => ⟨S10000x1, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_16 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_17 : Ref sig .tc := ⟨.hbm, 116, rfl⟩
abbrev main_v83 : Ref sig .tc := ⟨.hbm, 117, rfl⟩
abbrev main_v84 : Ref sig .tc := ⟨.hbm, 118, rfl⟩
abbrev main_c_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_19 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x6 : S_.BroadcastsInDim S100000x6 (![] : Fin 0 → Fin S100000x6.rank)
  bcast_S100000x1_S100000x6_0_1 : S100000x1.BroadcastsInDim S100000x6 (![0, 1] : Fin 2 → Fin S100000x6.rank)
  shapeCasts_S64_S1x64 : S64.ShapeCasts S1x64
  inb_S10000x6_S10000x6_0_0 : ∀ a, (![0, 0] : Fin 2 → Nat) a + S10000x6.size a ≤ S10000x6.size a
  h_S10000x6 : 0 < S10000x6.numel
  shapeCasts_S10000x6_S10000x6 : S10000x6.ShapeCasts S10000x6
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  scatter_S100000_S1200000x1_S1200000_n_0_0_1_wf : ScatterDims.WF S100000 S1200000x1 S1200000 [] [0] [0] 1
  gather_S100000x6_S1200000x1_S1200000x6_1_0_n_n_0_1_16_wf : GatherDims.WF S100000x6 S1200000x1 S1200000x6 [1] [0] [] [0] [] 1 ![1, 6]
  scatter_S100000x6_S1200000x1_S1200000x6_1_0_0_1_wf : ScatterDims.WF S100000x6 S1200000x1 S1200000x6 [1] [0] [0] 1
  dot_S10000x6_S6x64_S10000x64_1_0_0_1_n_n_wf : DotDims.WF S10000x6 S6x64 S10000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x1.size a ≤ S64x1.size a
  hwx5_1 : ∀ i : grid5.Coords, EltTy.bits .f32 = 32 ∨ (Rect.block (s := S64x1) S64x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x1.size a ≤ S100000x1.size a
  hwx5_3 : ∀ i : grid5.Coords, EltTy.bits .f32 = 32 ∨ (Rect.block (s := S100000x1) S10000x1.size (cc5_transform_3 i) (hinb5_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x6_S1200000x1_S1200000x6_1_0_n_n_0_1_16 : GatherDims S100000x6 S1200000x1 S1200000x6 where
  offsetDims := [1]
  collapsedSliceDims := [0]
  operandBatchingDims := []
  startIndicesBatchingDims := []
  startIndexMap := [0]
  indexVectorDim := 1
  sliceSizes := ![1, 6]
  wf := gather_S100000x6_S1200000x1_S1200000x6_1_0_n_n_0_1_16_wf
def scatter_S100000x6_S1200000x1_S1200000x6_1_0_0_1 : ScatterDims S100000x6 S1200000x1 S1200000x6 where
  updateWindowDims := [1]
  insertedWindowDims := [0]
  scatterDimsToOperandDims := [0]
  indexVectorDim := 1
  wf := scatter_S100000x6_S1200000x1_S1200000x6_1_0_0_1_wf
def dot_S10000x6_S6x64_S10000x64_1_0_0_1_n_n : DotDims S10000x6 S6x64 S10000x64 where
  lhsContracting := [1]
  rhsContracting := [0]
  lhsNonContracting := [0]
  rhsNonContracting := [1]
  lhsBatch := []
  rhsBatch := []
  wf := dot_S10000x6_S6x64_S10000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v24) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S10000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v40) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S10000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v54) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v66) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S10000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v68) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v80) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S10000x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v82) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v94) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S64x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v95) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S10000x1.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x6 : Shape := ⟨2, ![100000, 6]⟩
abbrev S2x1200000 : Shape := ⟨2, ![2, 1200000]⟩
abbrev S6x64 : Shape := ⟨2, ![6, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x6 : Shape := ⟨2, ![1200000, 6]⟩
abbrev S100000x64 : Shape := ⟨2, ![100000, 64]⟩
abbrev S1x64 : Shape := ⟨2, ![1, 64]⟩
abbrev S1200000x64 : Shape := ⟨2, ![1200000, 64]⟩
abbrev S1x1 : Shape := ⟨2, ![1, 1]⟩

abbrev nBuf : Space → Nat
  | .hbm => 165
  | .vmem => 0
  | .smem => 0
  | _ => 0

abbrev hbmTy0_0 (i : Nat) : BufTy := match i % 128 with
  | 0 => ⟨S100000x6, .f32⟩
  | 1 => ⟨S2x1200000, .i32⟩
  | 2 => ⟨S6x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x1, .f32⟩
  | 13 => ⟨S1, .f32⟩
  | 14 => ⟨S1x1200000, .i32⟩
  | 15 => ⟨S1200000, .i32⟩
  | 16 => ⟨S1x1200000, .i32⟩
  | 17 => ⟨S1200000, .i32⟩
  | 18 => ⟨S_, .f32⟩
  | 19 => ⟨S1200000, .f32⟩
  | 20 => ⟨S_, .f32⟩
  | 21 => ⟨S100000, .f32⟩
  | 22 => ⟨S1200000x1, .i32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S_, .i32⟩
  | 32 => ⟨S1200000, .i32⟩
  | 33 => ⟨S1200000, .i1⟩
  | 34 => ⟨S_, .i32⟩
  | 35 => ⟨S1200000, .i32⟩
  | 36 => ⟨S1200000, .i32⟩
  | 37 => ⟨S1200000, .i32⟩
  | 38 => ⟨S1200000x1, .i32⟩
  | 39 => ⟨S1200000x6, .f32⟩
  | 40 => ⟨S_, .f32⟩
  | 41 => ⟨S100000x6, .f32⟩
  | 42 => ⟨S1200000x1, .i32⟩
  | 43 => ⟨S100000x6, .f32⟩
  | 44 => ⟨S100000x6, .f32⟩
  | 45 => ⟨S100000x6, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S100000x64, .f32⟩
  | 52 => ⟨S100000x64, .f32⟩
  | 53 => ⟨S_, .i32⟩
  | 54 => ⟨S1200000, .i32⟩
  | 55 => ⟨S1200000, .i1⟩
  | 56 => ⟨S_, .i32⟩
  | 57 => ⟨S1200000, .i32⟩
  | 58 => ⟨S1200000, .i32⟩
  | 59 => ⟨S1200000, .i32⟩
  | 60 => ⟨S1200000x1, .i32⟩
  | 61 => ⟨S1200000x64, .f32⟩
  | 62 => ⟨S_, .f32⟩
  | 63 => ⟨S100000x64, .f32⟩
  | 64 => ⟨S1200000x1, .i32⟩
  | 65 => ⟨S100000x64, .f32⟩
  | 66 => ⟨S100000x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S_, .i32⟩
  | 77 => ⟨S1200000, .i32⟩
  | 78 => ⟨S1200000, .i1⟩
  | 79 => ⟨S_, .i32⟩
  | 80 => ⟨S1200000, .i32⟩
  | 81 => ⟨S1200000, .i32⟩
  | 82 => ⟨S1200000, .i32⟩
  | 83 => ⟨S1200000x1, .i32⟩
  | 84 => ⟨S1200000x64, .f32⟩
  | 85 => ⟨S_, .f32⟩
  | 86 => ⟨S100000x64, .f32⟩
  | 87 => ⟨S1200000x1, .i32⟩
  | 88 => ⟨S100000x64, .f32⟩
  | 89 => ⟨S100000x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000x64, .f32⟩
  | 99 => ⟨S_, .i32⟩
  | 100 => ⟨S1200000, .i32⟩
  | 101 => ⟨S1200000, .i1⟩
  | 102 => ⟨S_, .i32⟩
  | 103 => ⟨S1200000, .i32⟩
  | 104 => ⟨S1200000, .i32⟩
  | 105 => ⟨S1200000, .i32⟩
  | 106 => ⟨S1200000x1, .i32⟩
  | 107 => ⟨S1200000x64, .f32⟩
  | 108 => ⟨S_, .f32⟩
  | 109 => ⟨S100000x64, .f32⟩
  | 110 => ⟨S1200000x1, .i32⟩
  | 111 => ⟨S100000x64, .f32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S_, .i32⟩
  | 123 => ⟨S1200000, .i32⟩
  | 124 => ⟨S1200000, .i1⟩
  | 125 => ⟨S_, .i32⟩
  | 126 => ⟨S1200000, .i32⟩
  | 127 => ⟨S1200000, .i32⟩
  | _ => ⟨S100000x6, .f32⟩

abbrev hbmTy0_1 (i : Nat) : BufTy := match i % 128 with
  | 0 => ⟨S1200000, .i32⟩
  | 1 => ⟨S1200000x1, .i32⟩
  | 2 => ⟨S1200000x64, .f32⟩
  | 3 => ⟨S_, .f32⟩
  | 4 => ⟨S100000x64, .f32⟩
  | 5 => ⟨S1200000x1, .i32⟩
  | 6 => ⟨S100000x64, .f32⟩
  | 7 => ⟨S100000x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x64, .f32⟩
  | 17 => ⟨S_, .i32⟩
  | 18 => ⟨S1200000, .i32⟩
  | 19 => ⟨S1200000, .i1⟩
  | 20 => ⟨S_, .i32⟩
  | 21 => ⟨S1200000, .i32⟩
  | 22 => ⟨S1200000, .i32⟩
  | 23 => ⟨S1200000, .i32⟩
  | 24 => ⟨S1200000x1, .i32⟩
  | 25 => ⟨S1200000x64, .f32⟩
  | 26 => ⟨S_, .f32⟩
  | 27 => ⟨S100000x64, .f32⟩
  | 28 => ⟨S1200000x1, .i32⟩
  | 29 => ⟨S100000x64, .f32⟩
  | 30 => ⟨S100000x64, .f32⟩
  | 31 => ⟨S100000x64, .f32⟩
  | 32 => ⟨S100000x1, .f32⟩
  | 33 => ⟨S1x1, .f32⟩
  | 34 => ⟨S100000x1, .f32⟩
  | 35 => ⟨S100000x1, .f32⟩
  | 36 => ⟨S100000, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call0_cst : Ref sig .tc := ⟨.hbm, 50, rfl⟩
abbrev main_call0_v0 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_call1_cst : Ref sig .tc := ⟨.hbm, 72, rfl⟩
abbrev main_call1_v0 : Ref sig .tc := ⟨.hbm, 73, rfl⟩
abbrev main_v46 : Ref sig .tc := ⟨.hbm, 74, rfl⟩
abbrev main_v47 : Ref sig .tc := ⟨.hbm, 75, rfl⟩
abbrev main_c_8 : Ref sig .tc := ⟨.hbm, 76, rfl⟩
abbrev main_v48 : Ref sig .tc := ⟨.hbm, 77, rfl⟩
abbrev main_v49 : Ref sig .tc := ⟨.hbm, 78, rfl⟩
abbrev main_c_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call2_cst : Ref sig .tc := ⟨.hbm, 95, rfl⟩
abbrev main_call2_v0 : Ref sig .tc := ⟨.hbm, 96, rfl⟩
abbrev main_v64 : Ref sig .tc := ⟨.hbm, 97, rfl⟩
abbrev main_v65 : Ref sig .tc := ⟨.hbm, 98, rfl⟩
abbrev main_c_11 : Ref sig .tc := ⟨.hbm, 99, rfl⟩
abbrev main_v66 : Ref sig .tc := ⟨.hbm, 100, rfl⟩
abbrev main_v67 : Ref sig .tc := ⟨.hbm, 101, rfl⟩
abbrev main_c_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_13 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call3_cst : Ref sig .tc := ⟨.hbm, 118, rfl⟩
abbrev main_call3_v0 : Ref sig .tc := ⟨.hbm, 119, rfl⟩
abbrev main_v82 : Ref sig .tc := ⟨.hbm, 120, rfl⟩
abbrev main_v83 : Ref sig .tc := ⟨.hbm, 121, rfl⟩
abbrev main_c_14 : Ref sig .tc := ⟨.hbm, 122, rfl⟩
abbrev main_v84 : Ref sig .tc := ⟨.hbm, 123, rfl⟩
abbrev main_v85 : Ref sig .tc := ⟨.hbm, 124, rfl⟩
abbrev main_c_15 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_16 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_call4_cst : Ref sig .tc := ⟨.hbm, 141, rfl⟩
abbrev main_call4_v0 : Ref sig .tc := ⟨.hbm, 142, rfl⟩
abbrev main_v100 : Ref sig .tc := ⟨.hbm, 143, rfl⟩
abbrev main_v101 : Ref sig .tc := ⟨.hbm, 144, rfl⟩
abbrev main_c_17 : Ref sig .tc := ⟨.hbm, 145, rfl⟩
abbrev main_v102 : Ref sig .tc := ⟨.hbm, 146, rfl⟩
abbrev main_v103 : Ref sig .tc := ⟨.hbm, 147, rfl⟩
abbrev main_c_18 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_19 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x6 : S_.BroadcastsInDim S100000x6 (![] : Fin 0 → Fin S100000x6.rank)
  bcast_S100000x1_S100000x6_0_1 : S100000x1.BroadcastsInDim S100000x6 (![0, 1] : Fin 2 → Fin S100000x6.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1200000x1_S1200000_n_0_0_1_wf : ScatterDims.WF S100000 S1200000x1 S1200000 [] [0] [0] 1
  gather_S100000x6_S1200000x1_S1200000x6_1_0_n_n_0_1_16_wf : GatherDims.WF S100000x6 S1200000x1 S1200000x6 [1] [0] [] [0] [] 1 ![1, 6]
  scatter_S100000x6_S1200000x1_S1200000x6_1_0_0_1_wf : ScatterDims.WF S100000x6 S1200000x1 S1200000x6 [1] [0] [0] 1
  dot_S100000x6_S6x64_S100000x64_1_0_0_1_n_n_wf : DotDims.WF S100000x6 S6x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x6_S1200000x1_S1200000x6_1_0_n_n_0_1_16 : GatherDims S100000x6 S1200000x1 S1200000x6 where
  offsetDims := [1]
  collapsedSliceDims := [0]
  operandBatchingDims := []
  startIndicesBatchingDims := []
  startIndexMap := [0]
  indexVectorDim := 1
  sliceSizes := ![1, 6]
  wf := gather_S100000x6_S1200000x1_S1200000x6_1_0_n_n_0_1_16_wf
def scatter_S100000x6_S1200000x1_S1200000x6_1_0_0_1 : ScatterDims S100000x6 S1200000x1 S1200000x6 where
  updateWindowDims := [1]
  insertedWindowDims := [0]
  scatterDimsToOperandDims := [0]
  indexVectorDim := 1
  wf := scatter_S100000x6_S1200000x1_S1200000x6_1_0_0_1_wf
def dot_S100000x6_S6x64_S100000x64_1_0_0_1_n_n : DotDims S100000x6 S6x64 S100000x64 where
  lhsContracting := [1]
  rhsContracting := [0]
  lhsNonContracting := [0]
  rhsNonContracting := [1]
  lhsBatch := []
  rhsBatch := []
  wf := dot_S100000x6_S6x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with its result named.

  The program is thirteen segments: seven stretches of host operations and, between them, six pipelined regions, each
  a dense layer applied to ten blocks of 10000 rows. The contents of every buffer at the boundary after the last
  stretch are a fold through the segments from the launch memory. Every weakly fair execution terminates, nothing
  faulting, with every unscoped buffer at that last boundary's contents; in particular the result buffer holds the
  fold's value at the result, and each argument array holds what it held at launch. This is the frame run with one more
  buffer read off the final state.
-/
import proofs.«121523_j35639638622631_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the result buffer at the last boundary's contents and
    every argument array as launched. -/
theorem run_result : θ_run defs (onTc (τ := τ) (main (F := F))) ⟨m, fun _ => 0, ρ⟩ (fun r => ∀ c : Dev nD,
      r.2.mem ((c.tc : Thread nD τ).loc main_v97) = W13 m ρ c (Proc.devRef .tc main_v97)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v97 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c)⟩)

end Cert.KernelIdeal.RunResult

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LibDenseRow.lean ====
/-
  A dense layer on one row of features, and its two spellings read at an entry.

  `denseRow x w b` is the affine image of a row `x` of `K` features under a `K x N` weight matrix `w` and a bias
  `b` of `N` entries: lane `c` holds the sum over `k` of `x k * w k c`, plus `b c`, on the extended reals.

  Two programs spell it differently.
  * A kernel multiplies a block `[B, K]` by the weights `[K, N]` in the matrix unit, into the zero accumulator, and
    adds a bias kept as one row `[1, N]` broadcast down the `B` rows.
  * A host program contracts `[B, K]` with `[K, N]` and adds a flat bias `[N]` laid first as a row `[1, N]` and
    then down the `B` rows.
  Row `p` of either result is `denseRow` of row `p` of the left operand: no entry of another row enters it. The
  products' dimension records enter only through how they place coordinates (the left operand read at (row, k), the
  right one at (k, column)); those placement facts are hypotheses, so the lemmas serve any record of that pattern.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«121523_j35639638622631_1_alg».proof.Proof.LibPlainMatmul
import proofs.«121523_j35639638622631_1_alg».proof.Proof.LibHostRowOps
import proofs.«121523_j35639638622631_1_alg».proof.Proof.LibRowBias

noncomputable section

open scoped BigOperators

namespace Cert.DenseRow

open Idealize.ShloMosaic Idealize.ShloMosaic.ValueIdx

/-- The affine image of a row: lane `c` is the sum over `k` of `x k * w k c`, plus `b c`. -/
def denseRow {K N : Nat} (x : Fin K → EReal) (w : Fin K → Fin N → EReal) (b : Fin N → EReal) : Fin N → EReal :=
  fun c => (∑ k : Fin K, x k * w k c) + b c

variable {α : Type}

/-- A flat vector laid as a single row by the host's broadcast holds, in lane `j`, the vector's entry `j`. -/
theorem hostFlatRow_apply {n : Nat} (v : (⟨1, ![n]⟩ : Shape).Idx → α)
    (h : (⟨1, ![n]⟩ : Shape).BroadcastsInDim (⟨2, ![1, n]⟩ : Shape) ![1]) (j : Fin n) :
    broadcastInDim (⟨2, ![1, n]⟩ : Shape) ![1] h v (ix2 (0 : Fin 1) j) = v (ix1 j) :=
  broadcastInDim_apply _ h v (ix2 (0 : Fin 1) j) (ix1 j) (fun a => match a with
    | ⟨0, _⟩ => by
        show j.val = if n = 1 then 0 else j.val
        split
        · have := j.isLt; omega
        · rfl)

/-- A single row laid down `B` rows by the host's broadcast holds the row's lane `j` in lane `j` of every row. -/
theorem hostRowDown_apply {B n : Nat} (y : (⟨2, ![1, n]⟩ : Shape).Idx → α)
    (h : (⟨2, ![1, n]⟩ : Shape).BroadcastsInDim (⟨2, ![B, n]⟩ : Shape) ![0, 1]) (p : Fin B) (j : Fin n) :
    broadcastInDim (⟨2, ![B, n]⟩ : Shape) ![0, 1] h y (ix2 p j) = y (ix2 (0 : Fin 1) j) :=
  broadcastInDim_apply _ h y (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

/-- The kernel's spelling: a matrix-unit product into the zero accumulator plus a bias row broadcast down the rows, read
    at entry `(p, c)`, is lane `c` of `denseRow` of row `p` of the left operand. -/
theorem kernelDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul D prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c := by
  show matmul D prec l r (constant (F := Ideal) (⟨2, ![B, N]⟩ : Shape) .f32 0x00000000#32) (ix2 p c)
      + broadcastTo (⟨2, ![B, N]⟩ : Shape) bias hb (ix2 p c) = _
  rw [Cert.PlainMatmul.matmul_zero_apply D hr hs hl0 hl1 hr0 hr1 prec l r p c, Cert.RowBias.bcastRow_apply bias hb p c]
  rfl

/-- The host's spelling: a contraction plus a flat bias laid as a row and then down the rows, read at entry `(p, c)`,
    is lane `c` of `denseRow` of row `p` of the left operand. -/
theorem hostDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) D prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c := by
  show Host.dotGeneral (F := Ideal) D prec l r (ix2 p c)
      + broadcastInDim (⟨2, ![B, N]⟩ : Shape) ![0, 1] h2 (broadcastInDim (⟨2, ![1, N]⟩ : Shape) ![1] h1 bias) (ix2 p c) = _
  rw [Cert.HostRowOps.hostDot_apply D hr hs hl0 hl1 hr0 hr1 prec l r p c, hostRowDown_apply _ h2 p c,
    hostFlatRow_apply bias h1 c]
  rfl

/-! ## The plain product `M x K` by `K x N`

  The library's record `DotDims.plain M K N` contracts the left operand's axis 1 with the right operand's axis 0 and has no
  batch axes. Its placement facts hold whatever the extents are, so the two spellings above need no hypotheses for it. A
  printed record with the same six lists is this record. -/

section Plain

variable (M K N : Nat)

theorem plain_rank : (DotDims.plain M K N).contr.rank = 1 := rfl

theorem plain_size : (DotDims.plain M K N).contr.size ⟨0, by rw [plain_rank]; exact Nat.one_pos⟩ = K := rfl

theorem plain_lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

theorem plain_rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

end Plain

/-- The kernel's spelling of a dense layer over the plain product. -/
theorem kernelDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul (DotDims.plain B K N) prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c :=
  kernelDense_apply (DotDims.plain B K N) (plain_rank B K N) (plain_size B K N) (plain_lhs0 B K N) (plain_lhs1 B K N)
    (plain_rhs0 B K N) (plain_rhs1 B K N) prec l r bias hb p c

/-- The host's spelling of a dense layer over the plain product. -/
theorem hostDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) (DotDims.plain B K N) prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c :=
  hostDense_apply (DotDims.plain B K N) (plain_rank B K N) (plain_size B K N) (plain_lhs0 B K N) (plain_lhs1 B K N)
    (plain_rhs0 B K N) (plain_rhs1 B K N) prec l r bias h1 h2 p c

end Cert.DenseRow

end
-- ==== Proof.LibLayerLaw.lean ====
/-
  One layer of the network, whole-array, in the two spellings the two programs use.

  A layer takes an array `a` of R rows of K aggregated features, a K x N weight matrix `w`, a bias of N entries and,
  for the middle layers, the previous hidden array `h` of R rows of N features. Entry (p, c) of its result is

      max (sum over k of a (p, k) * w (k, c) + b c) 0            (first layer)
      max (sum over k of a (p, k) * w (k, c) + b c) 0 + h (p, c)  (middle layers)
      sum over k of a (p, k) * w (k, c) + b c                     (last layer)

  on the extended reals. Row p of the result depends on row p of `a` (and of `h`) only, which is why a kernel may
  compute it ten thousand rows at a time.

  The host program spells the affine part as a contraction plus the flat bias laid first as a row and then down the
  rows, and the threshold as a maximum against a zero scalar laid over the whole array. The kernel spells it, on a block
  of B rows, as a matrix-unit product of the operands narrowed to sixteen bits (a change of format, the identity on the
  extended reals) into the zero accumulator, plus the bias kept as one row and broadcast down the block, and the
  threshold as a maximum against a splat zero. Both are the entry formula above: sums and products only, so no
  finiteness is asked of any operand.
-/
import Idealize.ShloMosaic.PureOps.Ideal
import Idealize.ShloMosaic.PureOps.Ideal.Laws
import Idealize.ShloMosaic.Lib.ValueIdx
import Idealize.ShloMosaic.Lib.Pipeline.Value
import proofs.«121523_j35639638622631_1_alg».proof.Proof.LibDenseRow

noncomputable section

open scoped BigOperators

namespace Cert.MeanNet

open Idealize.ShloMosaic Idealize.ShloMosaic.ValueIdx Cert.DenseRow

/-- The affine part of a layer over a whole array: entry (p, c) is the sum over k of a (p, k) * w (k, c), plus b c. -/
def affine {R K N : Nat} (a : (⟨2, ![R, K]⟩ : Shape).Idx → EReal) (w : (⟨2, ![K, N]⟩ : Shape).Idx → EReal)
    (b : Fin N → EReal) : (⟨2, ![R, N]⟩ : Shape).Idx → EReal :=
  fun i => denseRow (fun k => a (ix2 (n0 := R) (i 0) k)) (fun k c => w (ix2 k c)) b (i 1)

/-- The first layer: the affine part thresholded at zero. -/
def layerFirst {R K N : Nat} (a : (⟨2, ![R, K]⟩ : Shape).Idx → EReal) (w : (⟨2, ![K, N]⟩ : Shape).Idx → EReal)
    (b : Fin N → EReal) : (⟨2, ![R, N]⟩ : Shape).Idx → EReal :=
  fun i => max (affine a w b i) 0

/-- A middle layer: the thresholded affine part plus the previous hidden array. -/
def layerNext {R K N : Nat} (a : (⟨2, ![R, K]⟩ : Shape).Idx → EReal) (w : (⟨2, ![K, N]⟩ : Shape).Idx → EReal)
    (b : Fin N → EReal) (h : (⟨2, ![R, N]⟩ : Shape).Idx → EReal) : (⟨2, ![R, N]⟩ : Shape).Idx → EReal :=
  fun i => max (affine a w b i) 0 + h i

theorem affine_ix2 {R K N : Nat} (a : (⟨2, ![R, K]⟩ : Shape).Idx → EReal) (w : (⟨2, ![K, N]⟩ : Shape).Idx → EReal)
    (b : Fin N → EReal) (p : Fin R) (c : Fin N) :
    affine a w b (ix2 p c) = denseRow (fun k => a (ix2 p k)) (fun k c => w (ix2 k c)) b c := rfl

/-! ## The host's spelling -/

/-- A zero scalar laid over a whole array holds zero everywhere. -/
theorem hostZero_apply {s : Shape} (h : (⟨0, ![]⟩ : Shape).BroadcastsInDim s ![]) (i : s.Idx) :
    broadcastInDim s ![] h (constant (F := Ideal) (⟨0, ![]⟩ : Shape) .f32 0x00000000#32) i = (0 : EReal) := by
  rw [broadcastInDim_apply ![] h _ i ix0 (fun a => a.elim0)]
  exact Ideal.ofBits_zero_f32

/-- The host's contraction plus bias is the affine part. -/
theorem hostAffine {R K N : Nat} (prec : Option ContractPrecision)
    (a : FVec Ideal (⟨2, ![R, K]⟩ : Shape) .f32) (w : FVec Ideal (⟨2, ![K, N]⟩ : Shape) .f32)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![R, N]⟩ : Shape) ![0, 1]) :
    addf (Host.dotGeneral (F := Ideal) (DotDims.plain R K N) prec a w)
        (broadcastInDim (⟨2, ![R, N]⟩ : Shape) ![0, 1] h2 (broadcastInDim (⟨2, ![1, N]⟩ : Shape) ![1] h1 bias))
      = affine a w (fun c => bias (ix1 c)) := by
  funext i
  rw [eq_ix2 i]
  exact hostDensePlain_apply prec a w bias h1 h2 (i 0) (i 1)

/-- The host's first layer. -/
theorem hostFirst {R K N : Nat} (prec : Option ContractPrecision)
    (a : FVec Ideal (⟨2, ![R, K]⟩ : Shape) .f32) (w : FVec Ideal (⟨2, ![K, N]⟩ : Shape) .f32)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![R, N]⟩ : Shape) ![0, 1])
    (hz : (⟨0, ![]⟩ : Shape).BroadcastsInDim (⟨2, ![R, N]⟩ : Shape) ![]) :
    maximumf (addf (Host.dotGeneral (F := Ideal) (DotDims.plain R K N) prec a w)
        (broadcastInDim (⟨2, ![R, N]⟩ : Shape) ![0, 1] h2 (broadcastInDim (⟨2, ![1, N]⟩ : Shape) ![1] h1 bias)))
        (broadcastInDim (⟨2, ![R, N]⟩ : Shape) ![] hz (constant (F := Ideal) (⟨0, ![]⟩ : Shape) .f32 0x00000000#32))
      = layerFirst a w (fun c => bias (ix1 c)) := by
  rw [hostAffine prec a w bias h1 h2]
  funext i
  show max (affine a w (fun c => bias (ix1 c)) i)
    (broadcastInDim (⟨2, ![R, N]⟩ : Shape) ![] hz (constant (F := Ideal) (⟨0, ![]⟩ : Shape) .f32 0x00000000#32) i) = _
  rw [hostZero_apply hz i]
  rfl

/-- The host's middle layer. -/
theorem hostNext {R K N : Nat} (prec : Option ContractPrecision)
    (a : FVec Ideal (⟨2, ![R, K]⟩ : Shape) .f32) (w : FVec Ideal (⟨2, ![K, N]⟩ : Shape) .f32)
    (bias : FVec Ideal (⟨1, ![N]⟩ : Shape) .f32) (h : FVec Ideal (⟨2, ![R, N]⟩ : Shape) .f32)
    (h1 : (⟨1, ![N]⟩ : Shape).BroadcastsInDim (⟨2, ![1, N]⟩ : Shape) ![1])
    (h2 : (⟨2, ![1, N]⟩ : Shape).BroadcastsInDim (⟨2, ![R, N]⟩ : Shape) ![0, 1])
    (hz : (⟨0, ![]⟩ : Shape).BroadcastsInDim (⟨2, ![R, N]⟩ : Shape) ![]) :
    addf (maximumf (addf (Host.dotGeneral (F := Ideal) (DotDims.plain R K N) prec a w)
        (broadcastInDim (⟨2, ![R, N]⟩ : Shape) ![0, 1] h2 (broadcastInDim (⟨2, ![1, N]⟩ : Shape) ![1] h1 bias)))
        (broadcastInDim (⟨2, ![R, N]⟩ : Shape) ![] hz (constant (F := Ideal) (⟨0, ![]⟩ : Shape) .f32 0x00000000#32))) h
      = layerNext a w (fun c => bias (ix1 c)) h := by
  rw [hostFirst prec a w bias h1 h2 hz]
  rfl

/-! ## The kernel's spelling, on a block of B rows -/

/-- The kernel's affine part at an entry of a block. -/
theorem kernelAffine_apply {B K N : Nat} (prec : Option ContractPrecision)
    (x : FVec Ideal (⟨2, ![B, K]⟩ : Shape) .f32) (w : FVec Ideal (⟨2, ![K, N]⟩ : Shape) .f32)
    (brow : FVec Ideal (⟨2, ![1, N]⟩ : Shape) .f32)
    (hx : Shape.ShapeCasts (⟨2, ![B, K]⟩ : Shape) (⟨2, ![B, K]⟩ : Shape))
    (hr : Shape.ShapeCasts (⟨2, ![1, N]⟩ : Shape) (⟨2, ![1, N]⟩ : Shape))
    (hlt : FTy.bf16.bits < FTy.f32.bits)
    (hb : Shape.Broadcasts (⟨2, ![1, N]⟩ : Shape) (⟨2, ![B, N]⟩ : Shape)) (p : Fin B) (c : Fin N) :
    addf (matmul (DotDims.plain B K N) prec (truncf .bf16 (shapeCast (⟨2, ![B, K]⟩ : Shape) x hx) hlt) (truncf .bf16 w hlt)
          (constant (F := Ideal) (⟨2, ![B, N]⟩ : Shape) .f32 0x00000000#32))
        (broadcastTo (⟨2, ![B, N]⟩ : Shape) (shapeCast (⟨2, ![1, N]⟩ : Shape) brow hr) hb) (ix2 p c)
      = denseRow (fun k => x (ix2 p k)) (fun k c => w (ix2 k c)) (fun c => brow (ix2 (0 : Fin 1) c)) c := by
  rw [shapeCast_self x hx, shapeCast_self brow hr]
  exact kernelDensePlain_apply prec (truncf .bf16 x hlt) (truncf .bf16 w hlt) brow hb p c

/-- A splat zero holds zero at every index. -/
theorem splatZero_apply {s : Shape} (i : s.Idx) :
    broadcast (α := Ideal .f32) s (Scalar.ofBits (F := Ideal) .f32 0x00000000#32) i = (0 : EReal) :=
  Ideal.ofBits_zero_f32

end Cert.MeanNet

end
-- ==== Proof.RefLayers.lean ====
/-
  The reference program's hidden arrays, layer by layer.

  The reference computes each hidden array from the mean-aggregated previous one by a contraction with the layer's
  weights, the layer's bias laid down the rows, a threshold at zero and (in the middle layers) the previous hidden
  array added back; the last layer has no threshold. Read through the stages of the reference's run, each hidden array
  is therefore the whole-array layer of the aggregate before it: the statements below name the aggregate, the weights,
  the bias and the previous hidden array of each layer.
-/
import proofs.«121523_j35639638622631_1_alg».proof.Proof.Gen.ReferenceIdeal.Read
import proofs.«121523_j35639638622631_1_alg».proof.Proof.LibLayerLaw

noncomputable section

namespace Cert.ReferenceIdeal.RefLayers

open Cert.ReferenceIdeal Cert.ReferenceIdeal.Read Cert.MeanNet
open Idealize.ShloMosaic Idealize.ShloMosaic.ValueIdx

variable (x0 : S100000x6.Idx → EReal) (x1 : (⟨S2x1200000, .i32⟩ : BufTy).Contents (Elt Ideal))
  (x2 : S6x64.Idx → EReal) (x3 : S64.Idx → EReal) (x4 : S64x64.Idx → EReal) (x5 : S64.Idx → EReal)
  (x6 : S64x64.Idx → EReal) (x7 : S64.Idx → EReal) (x8 : S64x64.Idx → EReal) (x9 : S64.Idx → EReal)
  (x10 : S64x64.Idx → EReal) (x11 : S64.Idx → EReal) (x12 : S64x1.Idx → EReal) (x13 : S1.Idx → EReal)

/-- The first hidden array is the first layer of the aggregated input. -/
theorem hidden1 : val_main_v29 (F := Ideal) x0 x1 x2 x3
    = layerFirst (R := 100000) (K := 6) (N := 64) (val_main_v24 (F := Ideal) x0 x1) x2 (fun c => x3 (ix1 c)) := by
  unfold val_main_v29 val_main_v28 val_main_v25 val_main_v27 val_main_v26 val_main_call0_v0 val_main_call0_cst
  exact hostFirst none (val_main_v24 (F := Ideal) x0 x1) x2 x3 _ _ _

/-- The second hidden array is the middle layer of the aggregated first one, plus the first. -/
theorem hidden2 : val_main_v47 (F := Ideal) x0 x1 x2 x3 x4 x5
    = layerNext (R := 100000) (K := 64) (N := 64) (val_main_v41 (F := Ideal) x0 x1 x2 x3) x4 (fun c => x5 (ix1 c))
        (val_main_v29 (F := Ideal) x0 x1 x2 x3) := by
  unfold val_main_v47 val_main_v46 val_main_v45 val_main_v42 val_main_v44 val_main_v43 val_main_call1_v0 val_main_call1_cst
  exact hostNext none (val_main_v41 (F := Ideal) x0 x1 x2 x3) x4 x5 (val_main_v29 (F := Ideal) x0 x1 x2 x3) _ _ _

/-- The third hidden array. -/
theorem hidden3 : val_main_v65 (F := Ideal) x0 x1 x2 x3 x4 x5 x6 x7
    = layerNext (R := 100000) (K := 64) (N := 64) (val_main_v59 (F := Ideal) x0 x1 x2 x3 x4 x5) x6 (fun c => x7 (ix1 c))
        (val_main_v47 (F := Ideal) x0 x1 x2 x3 x4 x5) := by
  unfold val_main_v65 val_main_v64 val_main_v63 val_main_v60 val_main_v62 val_main_v61 val_main_call2_v0 val_main_call2_cst
  exact hostNext none (val_main_v59 (F := Ideal) x0 x1 x2 x3 x4 x5) x6 x7 (val_main_v47 (F := Ideal) x0 x1 x2 x3 x4 x5) _ _ _

/-- The fourth hidden array. -/
theorem hidden4 : val_main_v83 (F := Ideal) x0 x1 x2 x3 x4 x5 x6 x7 x8 x9
    = layerNext (R := 100000) (K := 64) (N := 64) (val_main_v77 (F := Ideal) x0 x1 x2 x3 x4 x5 x6 x7) x8 (fun c => x9 (ix1 c))
        (val_main_v65 (F := Ideal) x0 x1 x2 x3 x4 x5 x6 x7) := by
  unfold val_main_v83 val_main_v82 val_main_v81 val_main_v78 val_main_v80 val_main_v79 val_main_call3_v0 val_main_call3_cst
  exact hostNext none (val_main_v77 (F := Ideal) x0 x1 x2 x3 x4 x5 x6 x7) x8 x9 (val_main_v65 (F := Ideal) x0 x1 x2 x3 x4 x5 x6 x7) _ _ _

/-- The fifth hidden array. -/
theorem hidden5 : val_main_v101 (F := Ideal) x0 x1 x2 x3 x4 x5 x6 x7 x8 x9 x10 x11
    = layerNext (R := 100000) (K := 64) (N := 64) (val_main_v95 (F := Ideal) x0 x1 x2 x3 x4 x5 x6 x7 x8 x9) x10 (fun c => x11 (ix1 c))
        (val_main_v83 (F := Ideal) x0 x1 x2 x3 x4 x5 x6 x7 x8 x9) := by
  unfold val_main_v101 val_main_v100 val_main_v99 val_main_v96 val_main_v98 val_main_v97 val_main_call4_v0 val_main_call4_cst
  exact hostNext none (val_main_v95 (F := Ideal) x0 x1 x2 x3 x4 x5 x6 x7 x8 x9) x10 x11 (val_main_v83 (F := Ideal) x0 x1 x2 x3 x4 x5 x6 x7 x8 x9) _ _ _

/-- The output column is the affine map of the aggregated fifth hidden array. -/
theorem output : val_main_v117 (F := Ideal) x0 x1 x2 x3 x4 x5 x6 x7 x8 x9 x10 x11 x12 x13
    = affine (R := 100000) (K := 64) (N := 1) (val_main_v113 (F := Ideal) x0 x1 x2 x3 x4 x5 x6 x7 x8 x9 x10 x11) x12 (fun c => x13 (ix1 c)) := by
  unfold val_main_v117 val_main_v114 val_main_v116 val_main_v115
  exact hostAffine none (val_main_v113 (F := Ideal) x0 x1 x2 x3 x4 x5 x6 x7 x8 x9 x10 x11) x12 x13 _ _

end Cert.ReferenceIdeal.RefLayers

end
-- ==== Proof.Keep.lean ====
/-
  A buffer that a stretch of host operations does not write is unchanged by the stretch.

  One tactic, used by the modules that carry buffers through the program: the stretch's operations are listed, each
  operation's written buffer is named, and each is a buffer other than the one carried.
-/
import proofs.«121523_j35639638622631_1_alg».proof.Proof.Gen.KernelIdeal.Frame
import Idealize.ShloMosaic.Lib.StableHlo.Run

namespace Cert.KernelIdeal.Keep

open Cert.KernelIdeal Cert.KernelIdeal.Gen
open Idealize.ShloMosaic Idealize.ShloMosaic.StableHlo

/-- Closes `StableHlo.after ops W b = W b` when no operation of `ops` writes `b`. -/
macro "stretch_keeps" : tactic => `(tactic| (
  refine StableHlo.after_of_forall_not_mem _ _ (List.forall_iff_forall_mem.mp ?_)
  simp only [hostOps0, hostOps1, hostOps2, hostOps3, hostOps4, hostOps5, hostOps6, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

end Cert.KernelIdeal.Keep
-- ==== Proof.CarryEdges.lean ====
/-
  The edge lists, the inverse degrees and the hidden arrays, carried through the program.

  The first stretch of host operations splits the edge array into its row of destinations and its row of sources and
  computes the inverse degree of every node. Every later stretch reads these three arrays again, and nothing after the
  first stretch writes them: a pipelined region writes its own output array only, and the later stretches write fresh
  buffers. So at the exit of every region each of the three holds what the first stretch left in it. Likewise the hidden
  array a region leaves is still there, unchanged, when the next region reads it back as its residual.
-/
import proofs.«121523_j35639638622631_1_alg».proof.Proof.Keep

set_option maxRecDepth 16384

noncomputable section

namespace Cert.KernelIdeal.CarryEdges

open Cert.KernelIdeal Cert.KernelIdeal.Gen Cert.KernelIdeal.Keep
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## `main_v1` -/

theorem main_v1_W2 (c : Dev nD) : W2 m ρ c (Proc.devRef .tc main_v1) = W1 m ρ c (Proc.devRef .tc main_v1) :=
  W2_of_ne m ρ c main_v1 (by decide)
theorem main_v1_W4 (c : Dev nD) : W4 m ρ c (Proc.devRef .tc main_v1) = W2 m ρ c (Proc.devRef .tc main_v1) :=
  (W4_of_ne m ρ c main_v1 (by decide)).trans (show StableHlo.after hostOps1 (W2 m ρ c) (Proc.devRef .tc main_v1) = _ by stretch_keeps)
theorem main_v1_W6 (c : Dev nD) : W6 m ρ c (Proc.devRef .tc main_v1) = W4 m ρ c (Proc.devRef .tc main_v1) :=
  (W6_of_ne m ρ c main_v1 (by decide)).trans (show StableHlo.after hostOps2 (W4 m ρ c) (Proc.devRef .tc main_v1) = _ by stretch_keeps)
theorem main_v1_W8 (c : Dev nD) : W8 m ρ c (Proc.devRef .tc main_v1) = W6 m ρ c (Proc.devRef .tc main_v1) :=
  (W8_of_ne m ρ c main_v1 (by decide)).trans (show StableHlo.after hostOps3 (W6 m ρ c) (Proc.devRef .tc main_v1) = _ by stretch_keeps)
theorem main_v1_W10 (c : Dev nD) : W10 m ρ c (Proc.devRef .tc main_v1) = W8 m ρ c (Proc.devRef .tc main_v1) :=
  (W10_of_ne m ρ c main_v1 (by decide)).trans (show StableHlo.after hostOps4 (W8 m ρ c) (Proc.devRef .tc main_v1) = _ by stretch_keeps)
theorem main_v1_at4 (c : Dev nD) : W4 m ρ c (Proc.devRef .tc main_v1) = W1 m ρ c (Proc.devRef .tc main_v1) :=
  ((main_v1_W4 m ρ c).trans (main_v1_W2 m ρ c))
theorem main_v1_at6 (c : Dev nD) : W6 m ρ c (Proc.devRef .tc main_v1) = W1 m ρ c (Proc.devRef .tc main_v1) :=
  (((main_v1_W6 m ρ c).trans (main_v1_W4 m ρ c)).trans (main_v1_W2 m ρ c))
theorem main_v1_at8 (c : Dev nD) : W8 m ρ c (Proc.devRef .tc main_v1) = W1 m ρ c (Proc.devRef .tc main_v1) :=
  ((((main_v1_W8 m ρ c).trans (main_v1_W6 m ρ c)).trans (main_v1_W4 m ρ c)).trans (main_v1_W2 m ρ c))
theorem main_v1_at10 (c : Dev nD) : W10 m ρ c (Proc.devRef .tc main_v1) = W1 m ρ c (Proc.devRef .tc main_v1) :=
  (((((main_v1_W10 m ρ c).trans (main_v1_W8 m ρ c)).trans (main_v1_W6 m ρ c)).trans (main_v1_W4 m ρ c)).trans (main_v1_W2 m ρ c))

/-! ## `main_v3` -/

theorem main_v3_W2 (c : Dev nD) : W2 m ρ c (Proc.devRef .tc main_v3) = W1 m ρ c (Proc.devRef .tc main_v3) :=
  W2_of_ne m ρ c main_v3 (by decide)
theorem main_v3_W4 (c : Dev nD) : W4 m ρ c (Proc.devRef .tc main_v3) = W2 m ρ c (Proc.devRef .tc main_v3) :=
  (W4_of_ne m ρ c main_v3 (by decide)).trans (show StableHlo.after hostOps1 (W2 m ρ c) (Proc.devRef .tc main_v3) = _ by stretch_keeps)
theorem main_v3_W6 (c : Dev nD) : W6 m ρ c (Proc.devRef .tc main_v3) = W4 m ρ c (Proc.devRef .tc main_v3) :=
  (W6_of_ne m ρ c main_v3 (by decide)).trans (show StableHlo.after hostOps2 (W4 m ρ c) (Proc.devRef .tc main_v3) = _ by stretch_keeps)
theorem main_v3_W8 (c : Dev nD) : W8 m ρ c (Proc.devRef .tc main_v3) = W6 m ρ c (Proc.devRef .tc main_v3) :=
  (W8_of_ne m ρ c main_v3 (by decide)).trans (show StableHlo.after hostOps3 (W6 m ρ c) (Proc.devRef .tc main_v3) = _ by stretch_keeps)
theorem main_v3_W10 (c : Dev nD) : W10 m ρ c (Proc.devRef .tc main_v3) = W8 m ρ c (Proc.devRef .tc main_v3) :=
  (W10_of_ne m ρ c main_v3 (by decide)).trans (show StableHlo.after hostOps4 (W8 m ρ c) (Proc.devRef .tc main_v3) = _ by stretch_keeps)
theorem main_v3_at4 (c : Dev nD) : W4 m ρ c (Proc.devRef .tc main_v3) = W1 m ρ c (Proc.devRef .tc main_v3) :=
  ((main_v3_W4 m ρ c).trans (main_v3_W2 m ρ c))
theorem main_v3_at6 (c : Dev nD) : W6 m ρ c (Proc.devRef .tc main_v3) = W1 m ρ c (Proc.devRef .tc main_v3) :=
  (((main_v3_W6 m ρ c).trans (main_v3_W4 m ρ c)).trans (main_v3_W2 m ρ c))
theorem main_v3_at8 (c : Dev nD) : W8 m ρ c (Proc.devRef .tc main_v3) = W1 m ρ c (Proc.devRef .tc main_v3) :=
  ((((main_v3_W8 m ρ c).trans (main_v3_W6 m ρ c)).trans (main_v3_W4 m ρ c)).trans (main_v3_W2 m ρ c))
theorem main_v3_at10 (c : Dev nD) : W10 m ρ c (Proc.devRef .tc main_v3) = W1 m ρ c (Proc.devRef .tc main_v3) :=
  (((((main_v3_W10 m ρ c).trans (main_v3_W8 m ρ c)).trans (main_v3_W6 m ρ c)).trans (main_v3_W4 m ρ c)).trans (main_v3_W2 m ρ c))

/-! ## `main_v12` -/

theorem main_v12_W2 (c : Dev nD) : W2 m ρ c (Proc.devRef .tc main_v12) = W1 m ρ c (Proc.devRef .tc main_v12) :=
  W2_of_ne m ρ c main_v12 (by decide)
theorem main_v12_W4 (c : Dev nD) : W4 m ρ c (Proc.devRef .tc main_v12) = W2 m ρ c (Proc.devRef .tc main_v12) :=
  (W4_of_ne m ρ c main_v12 (by decide)).trans (show StableHlo.after hostOps1 (W2 m ρ c) (Proc.devRef .tc main_v12) = _ by stretch_keeps)
theorem main_v12_W6 (c : Dev nD) : W6 m ρ c (Proc.devRef .tc main_v12) = W4 m ρ c (Proc.devRef .tc main_v12) :=
  (W6_of_ne m ρ c main_v12 (by decide)).trans (show StableHlo.after hostOps2 (W4 m ρ c) (Proc.devRef .tc main_v12) = _ by stretch_keeps)
theorem main_v12_W8 (c : Dev nD) : W8 m ρ c (Proc.devRef .tc main_v12) = W6 m ρ c (Proc.devRef .tc main_v12) :=
  (W8_of_ne m ρ c main_v12 (by decide)).trans (show StableHlo.after hostOps3 (W6 m ρ c) (Proc.devRef .tc main_v12) = _ by stretch_keeps)
theorem main_v12_W10 (c : Dev nD) : W10 m ρ c (Proc.devRef .tc main_v12) = W8 m ρ c (Proc.devRef .tc main_v12) :=
  (W10_of_ne m ρ c main_v12 (by decide)).trans (show StableHlo.after hostOps4 (W8 m ρ c) (Proc.devRef .tc main_v12) = _ by stretch_keeps)
theorem main_v12_at4 (c : Dev nD) : W4 m ρ c (Proc.devRef .tc main_v12) = W1 m ρ c (Proc.devRef .tc main_v12) :=
  ((main_v12_W4 m ρ c).trans (main_v12_W2 m ρ c))
theorem main_v12_at6 (c : Dev nD) : W6 m ρ c (Proc.devRef .tc main_v12) = W1 m ρ c (Proc.devRef .tc main_v12) :=
  (((main_v12_W6 m ρ c).trans (main_v12_W4 m ρ c)).trans (main_v12_W2 m ρ c))
theorem main_v12_at8 (c : Dev nD) : W8 m ρ c (Proc.devRef .tc main_v12) = W1 m ρ c (Proc.devRef .tc main_v12) :=
  ((((main_v12_W8 m ρ c).trans (main_v12_W6 m ρ c)).trans (main_v12_W4 m ρ c)).trans (main_v12_W2 m ρ c))
theorem main_v12_at10 (c : Dev nD) : W10 m ρ c (Proc.devRef .tc main_v12) = W1 m ρ c (Proc.devRef .tc main_v12) :=
  (((((main_v12_W10 m ρ c).trans (main_v12_W8 m ρ c)).trans (main_v12_W6 m ρ c)).trans (main_v12_W4 m ρ c)).trans (main_v12_W2 m ρ c))

/-! ## The hidden arrays read back as residuals -/

theorem main_v26_W3 (c : Dev nD) : W3 m ρ c (Proc.devRef .tc main_v26) = W2 m ρ c (Proc.devRef .tc main_v26) :=
  (show StableHlo.after hostOps1 (W2 m ρ c) (Proc.devRef .tc main_v26) = _ by stretch_keeps)
theorem main_v40_W5 (c : Dev nD) : W5 m ρ c (Proc.devRef .tc main_v40) = W4 m ρ c (Proc.devRef .tc main_v40) :=
  (show StableHlo.after hostOps2 (W4 m ρ c) (Proc.devRef .tc main_v40) = _ by stretch_keeps)
theorem main_v54_W7 (c : Dev nD) : W7 m ρ c (Proc.devRef .tc main_v54) = W6 m ρ c (Proc.devRef .tc main_v54) :=
  (show StableHlo.after hostOps3 (W6 m ρ c) (Proc.devRef .tc main_v54) = _ by stretch_keeps)
theorem main_v68_W9 (c : Dev nD) : W9 m ρ c (Proc.devRef .tc main_v68) = W8 m ρ c (Proc.devRef .tc main_v68) :=
  (show StableHlo.after hostOps4 (W8 m ρ c) (Proc.devRef .tc main_v68) = _ by stretch_keeps)

end Cert.KernelIdeal.CarryEdges

end
-- ==== Proof.CarryArgs.lean ====
/-
  The arguments, carried through the program.

  Layer k reads its weight matrix and its bias only when its own stretch and region come round; until then no host
  operation and no region writes an argument array. So at the entry of its own region the weight matrix, and at the
  exit of the region before it the bias, hold what they held at launch; so do the node features and the edge array when
  the first stretch reads them.
-/
import proofs.«121523_j35639638622631_1_alg».proof.Proof.Keep

set_option maxRecDepth 16384

noncomputable section

namespace Cert.KernelIdeal.CarryArgs

open Cert.KernelIdeal Cert.KernelIdeal.Gen Cert.KernelIdeal.Keep
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

theorem main_arg2_W1 (c : Dev nD) : W1 m ρ c (Proc.devRef .tc main_arg2) = m ((c : Thread nD τ).loc main_arg2) :=
  (show StableHlo.after hostOps0 (W0 m ρ c) (Proc.devRef .tc main_arg2) = _ by stretch_keeps)

/-! ## `main_arg4` -/

theorem main_arg4_W2 (c : Dev nD) : W2 m ρ c (Proc.devRef .tc main_arg4) = m ((c : Thread nD τ).loc main_arg4) :=
  (W2_of_ne m ρ c main_arg4 (by decide)).trans (show StableHlo.after hostOps0 (W0 m ρ c) (Proc.devRef .tc main_arg4) = _ by stretch_keeps)
theorem main_arg4_exit (c : Dev nD) : W2 m ρ c (Proc.devRef .tc main_arg4) = m ((c : Thread nD τ).loc main_arg4) :=
  (main_arg4_W2 m ρ c)
theorem main_arg4_entry (c : Dev nD) : W3 m ρ c (Proc.devRef .tc main_arg4) = m ((c : Thread nD τ).loc main_arg4) :=
  (show StableHlo.after hostOps1 (W2 m ρ c) (Proc.devRef .tc main_arg4) = _ by stretch_keeps).trans (main_arg4_exit m ρ c)

/-! ## `main_arg5` -/

theorem main_arg5_W2 (c : Dev nD) : W2 m ρ c (Proc.devRef .tc main_arg5) = m ((c : Thread nD τ).loc main_arg5) :=
  (W2_of_ne m ρ c main_arg5 (by decide)).trans (show StableHlo.after hostOps0 (W0 m ρ c) (Proc.devRef .tc main_arg5) = _ by stretch_keeps)
theorem main_arg5_exit (c : Dev nD) : W2 m ρ c (Proc.devRef .tc main_arg5) = m ((c : Thread nD τ).loc main_arg5) :=
  (main_arg5_W2 m ρ c)

/-! ## `main_arg6` -/

theorem main_arg6_W2 (c : Dev nD) : W2 m ρ c (Proc.devRef .tc main_arg6) = m ((c : Thread nD τ).loc main_arg6) :=
  (W2_of_ne m ρ c main_arg6 (by decide)).trans (show StableHlo.after hostOps0 (W0 m ρ c) (Proc.devRef .tc main_arg6) = _ by stretch_keeps)
theorem main_arg6_W4 (c : Dev nD) : W4 m ρ c (Proc.devRef .tc main_arg6) = W2 m ρ c (Proc.devRef .tc main_arg6) :=
  (W4_of_ne m ρ c main_arg6 (by decide)).trans (show StableHlo.after hostOps1 (W2 m ρ c) (Proc.devRef .tc main_arg6) = _ by stretch_keeps)
theorem main_arg6_exit (c : Dev nD) : W4 m ρ c (Proc.devRef .tc main_arg6) = m ((c : Thread nD τ).loc main_arg6) :=
  ((main_arg6_W4 m ρ c).trans (main_arg6_W2 m ρ c))
theorem main_arg6_entry (c : Dev nD) : W5 m ρ c (Proc.devRef .tc main_arg6) = m ((c : Thread nD τ).loc main_arg6) :=
  (show StableHlo.after hostOps2 (W4 m ρ c) (Proc.devRef .tc main_arg6) = _ by stretch_keeps).trans (main_arg6_exit m ρ c)

/-! ## `main_arg7` -/

theorem main_arg7_W2 (c : Dev nD) : W2 m ρ c (Proc.devRef .tc main_arg7) = m ((c : Thread nD τ).loc main_arg7) :=
  (W2_of_ne m ρ c main_arg7 (by decide)).trans (show StableHlo.after hostOps0 (W0 m ρ c) (Proc.devRef .tc main_arg7) = _ by stretch_keeps)
theorem main_arg7_W4 (c : Dev nD) : W4 m ρ c (Proc.devRef .tc main_arg7) = W2 m ρ c (Proc.devRef .tc main_arg7) :=
  (W4_of_ne m ρ c main_arg7 (by decide)).trans (show StableHlo.after hostOps1 (W2 m ρ c) (Proc.devRef .tc main_arg7) = _ by stretch_keeps)
theorem main_arg7_exit (c : Dev nD) : W4 m ρ c (Proc.devRef .tc main_arg7) = m ((c : Thread nD τ).loc main_arg7) :=
  ((main_arg7_W4 m ρ c).trans (main_arg7_W2 m ρ c))

/-! ## `main_arg8` -/

theorem main_arg8_W2 (c : Dev nD) : W2 m ρ c (Proc.devRef .tc main_arg8) = m ((c : Thread nD τ).loc main_arg8) :=
  (W2_of_ne m ρ c main_arg8 (by decide)).trans (show StableHlo.after hostOps0 (W0 m ρ c) (Proc.devRef .tc main_arg8) = _ by stretch_keeps)
theorem main_arg8_W4 (c : Dev nD) : W4 m ρ c (Proc.devRef .tc main_arg8) = W2 m ρ c (Proc.devRef .tc main_arg8) :=
  (W4_of_ne m ρ c main_arg8 (by decide)).trans (show StableHlo.after hostOps1 (W2 m ρ c) (Proc.devRef .tc main_arg8) = _ by stretch_keeps)
theorem main_arg8_W6 (c : Dev nD) : W6 m ρ c (Proc.devRef .tc main_arg8) = W4 m ρ c (Proc.devRef .tc main_arg8) :=
  (W6_of_ne m ρ c main_arg8 (by decide)).trans (show StableHlo.after hostOps2 (W4 m ρ c) (Proc.devRef .tc main_arg8) = _ by stretch_keeps)
theorem main_arg8_exit (c : Dev nD) : W6 m ρ c (Proc.devRef .tc main_arg8) = m ((c : Thread nD τ).loc main_arg8) :=
  (((main_arg8_W6 m ρ c).trans (main_arg8_W4 m ρ c)).trans (main_arg8_W2 m ρ c))
theorem main_arg8_entry (c : Dev nD) : W7 m ρ c (Proc.devRef .tc main_arg8) = m ((c : Thread nD τ).loc main_arg8) :=
  (show StableHlo.after hostOps3 (W6 m ρ c) (Proc.devRef .tc main_arg8) = _ by stretch_keeps).trans (main_arg8_exit m ρ c)

/-! ## `main_arg9` -/

theorem main_arg9_W2 (c : Dev nD) : W2 m ρ c (Proc.devRef .tc main_arg9) = m ((c : Thread nD τ).loc main_arg9) :=
  (W2_of_ne m ρ c main_arg9 (by decide)).trans (show StableHlo.after hostOps0 (W0 m ρ c) (Proc.devRef .tc main_arg9) = _ by stretch_keeps)
theorem main_arg9_W4 (c : Dev nD) : W4 m ρ c (Proc.devRef .tc main_arg9) = W2 m ρ c (Proc.devRef .tc main_arg9) :=
  (W4_of_ne m ρ c main_arg9 (by decide)).trans (show StableHlo.after hostOps1 (W2 m ρ c) (Proc.devRef .tc main_arg9) = _ by stretch_keeps)
theorem main_arg9_W6 (c : Dev nD) : W6 m ρ c (Proc.devRef .tc main_arg9) = W4 m ρ c (Proc.devRef .tc main_arg9) :=
  (W6_of_ne m ρ c main_arg9 (by decide)).trans (show StableHlo.after hostOps2 (W4 m ρ c) (Proc.devRef .tc main_arg9) = _ by stretch_keeps)
theorem main_arg9_exit (c : Dev nD) : W6 m ρ c (Proc.devRef .tc main_arg9) = m ((c : Thread nD τ).loc main_arg9) :=
  (((main_arg9_W6 m ρ c).trans (main_arg9_W4 m ρ c)).trans (main_arg9_W2 m ρ c))

/-! ## `main_arg10` -/

theorem main_arg10_W2 (c : Dev nD) : W2 m ρ c (Proc.devRef .tc main_arg10) = m ((c : Thread nD τ).loc main_arg10) :=
  (W2_of_ne m ρ c main_arg10 (by decide)).trans (show StableHlo.after hostOps0 (W0 m ρ c) (Proc.devRef .tc main_arg10) = _ by stretch_keeps)
theorem main_arg10_W4 (c : Dev nD) : W4 m ρ c (Proc.devRef .tc main_arg10) = W2 m ρ c (Proc.devRef .tc main_arg10) :=
  (W4_of_ne m ρ c main_arg10 (by decide)).trans (show StableHlo.after hostOps1 (W2 m ρ c) (Proc.devRef .tc main_arg10) = _ by stretch_keeps)
theorem main_arg10_W6 (c : Dev nD) : W6 m ρ c (Proc.devRef .tc main_arg10) = W4 m ρ c (Proc.devRef .tc main_arg10) :=
  (W6_of_ne m ρ c main_arg10 (by decide)).trans (show StableHlo.after hostOps2 (W4 m ρ c) (Proc.devRef .tc main_arg10) = _ by stretch_keeps)
theorem main_arg10_W8 (c : Dev nD) : W8 m ρ c (Proc.devRef .tc main_arg10) = W6 m ρ c (Proc.devRef .tc main_arg10) :=
  (W8_of_ne m ρ c main_arg10 (by decide)).trans (show StableHlo.after hostOps3 (W6 m ρ c) (Proc.devRef .tc main_arg10) = _ by stretch_keeps)
theorem main_arg10_exit (c : Dev nD) : W8 m ρ c (Proc.devRef .tc main_arg10) = m ((c : Thread nD τ).loc main_arg10) :=
  ((((main_arg10_W8 m ρ c).trans (main_arg10_W6 m ρ c)).trans (main_arg10_W4 m ρ c)).trans (main_arg10_W2 m ρ c))
theorem main_arg10_entry (c : Dev nD) : W9 m ρ c (Proc.devRef .tc main_arg10) = m ((c : Thread nD τ).loc main_arg10) :=
  (show StableHlo.after hostOps4 (W8 m ρ c) (Proc.devRef .tc main_arg10) = _ by stretch_keeps).trans (main_arg10_exit m ρ c)

/-! ## `main_arg11` -/

theorem main_arg11_W2 (c : Dev nD) : W2 m ρ c (Proc.devRef .tc main_arg11) = m ((c : Thread nD τ).loc main_arg11) :=
  (W2_of_ne m ρ c main_arg11 (by decide)).trans (show StableHlo.after hostOps0 (W0 m ρ c) (Proc.devRef .tc main_arg11) = _ by stretch_keeps)
theorem main_arg11_W4 (c : Dev nD) : W4 m ρ c (Proc.devRef .tc main_arg11) = W2 m ρ c (Proc.devRef .tc main_arg11) :=
  (W4_of_ne m ρ c main_arg11 (by decide)).trans (show StableHlo.after hostOps1 (W2 m ρ c) (Proc.devRef .tc main_arg11) = _ by stretch_keeps)
theorem main_arg11_W6 (c : Dev nD) : W6 m ρ c (Proc.devRef .tc main_arg11) = W4 m ρ c (Proc.devRef .tc main_arg11) :=
  (W6_of_ne m ρ c main_arg11 (by decide)).trans (show StableHlo.after hostOps2 (W4 m ρ c) (Proc.devRef .tc main_arg11) = _ by stretch_keeps)
theorem main_arg11_W8 (c : Dev nD) : W8 m ρ c (Proc.devRef .tc main_arg11) = W6 m ρ c (Proc.devRef .tc main_arg11) :=
  (W8_of_ne m ρ c main_arg11 (by decide)).trans (show StableHlo.after hostOps3 (W6 m ρ c) (Proc.devRef .tc main_arg11) = _ by stretch_keeps)
theorem main_arg11_exit (c : Dev nD) : W8 m ρ c (Proc.devRef .tc main_arg11) = m ((c : Thread nD τ).loc main_arg11) :=
  ((((main_arg11_W8 m ρ c).trans (main_arg11_W6 m ρ c)).trans (main_arg11_W4 m ρ c)).trans (main_arg11_W2 m ρ c))

/-! ## `main_arg12` -/

theorem main_arg12_W2 (c : Dev nD) : W2 m ρ c (Proc.devRef .tc main_arg12) = m ((c : Thread nD τ).loc main_arg12) :=
  (W2_of_ne m ρ c main_arg12 (by decide)).trans (show StableHlo.after hostOps0 (W0 m ρ c) (Proc.devRef .tc main_arg12) = _ by stretch_keeps)
theorem main_arg12_W4 (c : Dev nD) : W4 m ρ c (Proc.devRef .tc main_arg12) = W2 m ρ c (Proc.devRef .tc main_arg12) :=
  (W4_of_ne m ρ c main_arg12 (by decide)).trans (show StableHlo.after hostOps1 (W2 m ρ c) (Proc.devRef .tc main_arg12) = _ by stretch_keeps)
theorem main_arg12_W6 (c : Dev nD) : W6 m ρ c (Proc.devRef .tc main_arg12) = W4 m ρ c (Proc.devRef .tc main_arg12) :=
  (W6_of_ne m ρ c main_arg12 (by decide)).trans (show StableHlo.after hostOps2 (W4 m ρ c) (Proc.devRef .tc main_arg12) = _ by stretch_keeps)
theorem main_arg12_W8 (c : Dev nD) : W8 m ρ c (Proc.devRef .tc main_arg12) = W6 m ρ c (Proc.devRef .tc main_arg12) :=
  (W8_of_ne m ρ c main_arg12 (by decide)).trans (show StableHlo.after hostOps3 (W6 m ρ c) (Proc.devRef .tc main_arg12) = _ by stretch_keeps)
theorem main_arg12_W10 (c : Dev nD) : W10 m ρ c (Proc.devRef .tc main_arg12) = W8 m ρ c (Proc.devRef .tc main_arg12) :=
  (W10_of_ne m ρ c main_arg12 (by decide)).trans (show StableHlo.after hostOps4 (W8 m ρ c) (Proc.devRef .tc main_arg12) = _ by stretch_keeps)
theorem main_arg12_exit (c : Dev nD) : W10 m ρ c (Proc.devRef .tc main_arg12) = m ((c : Thread nD τ).loc main_arg12) :=
  (((((main_arg12_W10 m ρ c).trans (main_arg12_W8 m ρ c)).trans (main_arg12_W6 m ρ c)).trans (main_arg12_W4 m ρ c)).trans (main_arg12_W2 m ρ c))
theorem main_arg12_entry (c : Dev nD) : W11 m ρ c (Proc.devRef .tc main_arg12) = m ((c : Thread nD τ).loc main_arg12) :=
  (show StableHlo.after hostOps5 (W10 m ρ c) (Proc.devRef .tc main_arg12) = _ by stretch_keeps).trans (main_arg12_exit m ρ c)

/-! ## `main_arg13` -/

theorem main_arg13_W2 (c : Dev nD) : W2 m ρ c (Proc.devRef .tc main_arg13) = m ((c : Thread nD τ).loc main_arg13) :=
  (W2_of_ne m ρ c main_arg13 (by decide)).trans (show StableHlo.after hostOps0 (W0 m ρ c) (Proc.devRef .tc main_arg13) = _ by stretch_keeps)
theorem main_arg13_W4 (c : Dev nD) : W4 m ρ c (Proc.devRef .tc main_arg13) = W2 m ρ c (Proc.devRef .tc main_arg13) :=
  (W4_of_ne m ρ c main_arg13 (by decide)).trans (show StableHlo.after hostOps1 (W2 m ρ c) (Proc.devRef .tc main_arg13) = _ by stretch_keeps)
theorem main_arg13_W6 (c : Dev nD) : W6 m ρ c (Proc.devRef .tc main_arg13) = W4 m ρ c (Proc.devRef .tc main_arg13) :=
  (W6_of_ne m ρ c main_arg13 (by decide)).trans (show StableHlo.after hostOps2 (W4 m ρ c) (Proc.devRef .tc main_arg13) = _ by stretch_keeps)
theorem main_arg13_W8 (c : Dev nD) : W8 m ρ c (Proc.devRef .tc main_arg13) = W6 m ρ c (Proc.devRef .tc main_arg13) :=
  (W8_of_ne m ρ c main_arg13 (by decide)).trans (show StableHlo.after hostOps3 (W6 m ρ c) (Proc.devRef .tc main_arg13) = _ by stretch_keeps)
theorem main_arg13_W10 (c : Dev nD) : W10 m ρ c (Proc.devRef .tc main_arg13) = W8 m ρ c (Proc.devRef .tc main_arg13) :=
  (W10_of_ne m ρ c main_arg13 (by decide)).trans (show StableHlo.after hostOps4 (W8 m ρ c) (Proc.devRef .tc main_arg13) = _ by stretch_keeps)
theorem main_arg13_exit (c : Dev nD) : W10 m ρ c (Proc.devRef .tc main_arg13) = m ((c : Thread nD τ).loc main_arg13) :=
  (((((main_arg13_W10 m ρ c).trans (main_arg13_W8 m ρ c)).trans (main_arg13_W6 m ρ c)).trans (main_arg13_W4 m ρ c)).trans (main_arg13_W2 m ρ c))

end Cert.KernelIdeal.CarryArgs

end
-- ==== Proof.Region0.lean ====
/-
  The first region: what its output array holds after the ten grid points.

  Grid point t stages rows 10000 t .. 10000 t + 9999 of the aggregated input [100000, 6], the whole weight matrix
  [6, 64] and the whole bias row [1, 64], and writes back rows 10000 t .. 10000 t + 9999 of the output [100000, 64].
  The body's one store is the thresholded affine image of the staged rows, so what point t writes back is block t of the
  whole-array first layer of the arrays as the region finds them. The ten blocks tile the output (row r lies in block
  r / 10000), so after the region the output array is that layer everywhere.
-/
import proofs.«121523_j35639638622631_1_alg».proof.Proof.Gen.KernelIdeal.Frame
import proofs.«121523_j35639638622631_1_alg».proof.Proof.LibLayerLaw
import Idealize.ShloMosaic.Lib.Pipeline.Value
import Idealize.ShloMosaic.Lib.ValueIdx

set_option maxRecDepth 16384

noncomputable section

open scoped BigOperators

namespace Cert.KernelIdeal.Layers

open Cert.KernelIdeal Cert.KernelIdeal.Gen Cert.MeanNet Cert.DenseRow
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's stored value at entry (p, q) of a block: the thresholded affine image of row p of the staged rows. -/
theorem pay0_apply (x0 : Vec Ideal S10000x6 .f32) (x1 : Vec Ideal S6x64 .f32) (x2 : Vec Ideal S1x64 .f32)
    (p : Fin 10000) (q : Fin 64) :
    k0_pay1 (F := Ideal) x0 x1 x2 (ix2 p q)
      = max (denseRow (fun k => x0 (ix2 p k)) (fun k c => x1 (ix2 k c)) (fun c => x2 (ix2 (0 : Fin 1) c)) q) 0 := by
  show max (addf (matmul (DotDims.plain 10000 6 64) none (truncf .bf16 (shapeCast S10000x6 x0 shapeCasts_S10000x6_S10000x6) bitsLt_bf16_f32)
        (truncf .bf16 x1 bitsLt_bf16_f32) (constant (F := Ideal) S10000x64 .f32 0x00000000#32))
      (broadcastTo S10000x64 (shapeCast S1x64 x2 shapeCasts_S1x64_S1x64) broadcasts_S1x64_S10000x64) (ix2 p q))
    (broadcast (α := Ideal .f32) S10000x64 (Scalar.ofBits (F := Ideal) .f32 0x00000000#32) (ix2 p q)) = _
  exact congrArg₂ max (kernelAffine_apply none x0 x1 x2 _ _ _ _ p q) (splatZero_apply _)

variable (V : (c : Dev nD) → (b : Ref sig .tc) → Buf (Elt Ideal) ((c : Thread nD τ).loc b))

/-- The printed index maps over the ten points: the row windows sit at block t, the weights and the bias at block 0. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array the first region leaves, as one function of the arrays it finds. -/
abbrev G0 (c : Dev nD) : S100000x64.Idx → EReal :=
  layerFirst (R := 100000) (K := 6) (N := 64) (V c main_v24) (V c main_arg2) (fun q => V c main_v25 (ix2 (0 : Fin 1) q))

/-- What point t writes back is block t of the first layer. -/
theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero offsets_zero]
  simp only [View.ld_unit_zero (S := S10000x6) offsets_zero, View.ld_unit_zero (S := S6x64) offsets_zero,
    View.ld_unit_zero (S := S1x64) offsets_zero]
  obtain ⟨e0, e1, e2, e3, e4, e5, e6, e7⟩ := idx0 t
  funext j
  obtain ⟨p, q, rfl⟩ : ∃ (p : Fin 10000) (q : Fin 64), j = ix2 p q := ⟨j 0, j 1, eq_ix2 j⟩
  refine (pay0_apply (iblk0 V c 0 t) (iblk0 V c 1 t) (iblk0 V c 2 t) p q).trans ?_
  have ht : t.val < 10 := by
    have h := t.isLt
    have hN : grid0.N = 10 := N_0
    change t.val < grid0.N at h
    omega
  have hrow : t.val * 10000 + p.val < 100000 := by have := p.isLt; omega
  have hemb : ((cfg0.win 3).blk t).view.emb (ix2 p q) = ix2 (n0 := 100000) (n1 := 64) ⟨t.val * 10000 + p.val, hrow⟩ q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  have h1 : (fun k : Fin 6 => iblk0 V c 0 t (ix2 p k))
      = fun k => V c main_v24 (ix2 (n0 := 100000) (n1 := 6) ⟨t.val * 10000 + p.val, hrow⟩ k) := funext fun k => by
    show V c main_v24 (((cfg0.win 0).blk t).view.emb (ix2 p k)) = _
    refine congrArg (V c main_v24) ?_
    funext a; apply Fin.ext
    match a with
    | ⟨0, _⟩ => show win0_0.index t (0 : Fin 2) * 10000 + 1 * p.val = t.val * 10000 + p.val; omega
    | ⟨1, _⟩ => show win0_0.index t (1 : Fin 2) * 6 + 1 * k.val = k.val; omega
  have h2 : (fun (k : Fin 6) (c' : Fin 64) => iblk0 V c 1 t (ix2 k c'))
      = fun k c' => V c main_arg2 (ix2 k c') := funext fun k => funext fun c' => by
    show V c main_arg2 (((cfg0.win 1).blk t).view.emb (ix2 k c')) = _
    refine congrArg (V c main_arg2) ?_
    funext a; apply Fin.ext
    match a with
    | ⟨0, _⟩ => show win0_1.index t (0 : Fin 2) * 6 + 1 * k.val = k.val; omega
    | ⟨1, _⟩ => show win0_1.index t (1 : Fin 2) * 64 + 1 * c'.val = c'.val; omega
  have h3 : (fun c' : Fin 64 => iblk0 V c 2 t (ix2 (0 : Fin 1) c'))
      = fun c' => V c main_v25 (ix2 (0 : Fin 1) c') := funext fun c' => by
    show V c main_v25 (((cfg0.win 2).blk t).view.emb (ix2 (0 : Fin 1) c')) = _
    refine congrArg (V c main_v25) ?_
    funext a; apply Fin.ext
    match a with
    | ⟨0, _⟩ => show win0_2.index t (0 : Fin 2) * 1 + 1 * 0 = 0; omega
    | ⟨1, _⟩ => show win0_2.index t (1 : Fin 2) * 64 + 1 * c'.val = c'.val; omega
  show _ = max (affine (R := 100000) (K := 6) (N := 64) (V c main_v24) (V c main_arg2) (fun q => V c main_v25 (ix2 (0 : Fin 1) q))
    (((cfg0.win 3).blk t).view.emb (ix2 p q))) 0
  rw [hemb, affine_ix2, h1, h2, h3]

/-- An index of the output array is in point t's block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v26).slice (win0_3.rect t)).set ↔ _
  rw [View.set_slice_whole, Rect.mem_set_unit]
  exact Iff.rfl

/-- Every index of the output array lies in the block of the point its row selects. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  have hlt : (i 0).val / 10000 < grid0.N := by omega
  refine ⟨⟨(i 0).val / 10000, hlt⟩, flush0_3 _, ?_⟩
  rw [mem_blk0]
  obtain ⟨-, -, -, -, -, -, e6, e7⟩ := idx0 ⟨(i 0).val / 10000, hlt⟩
  intro a
  match a with
  | ⟨0, _⟩ =>
    show win0_3.index ⟨(i 0).val / 10000, hlt⟩ (0 : Fin 2) * 10000 ≤ (i 0).val
      ∧ (i 0).val < win0_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win0_3.index ⟨(i 0).val / 10000, hlt⟩ (1 : Fin 2) * 64 ≤ (i 1).val
      ∧ (i 1).val < win0_3.index ⟨(i 0).val / 10000, hlt⟩ (1 : Fin 2) * 64 + 64
    rw [e7]; omega

/-- After the region its output array is the first layer of the arrays the region found. -/
theorem final0 (c : Dev nD) : (dat0 V c).arrAt 3 cfg0.N = G0 V c :=
  (dat0 V c).arrAt_eq_of_cover 3 (G0 V c) (fun t _ => flushed0 V c t) cover0

end Cert.KernelIdeal.Layers

end
-- ==== Proof.Thread0.lean ====
/-
  The kernel program through its first region, against the reference's stages.

  After the first stretch of host operations the kernel program holds the destinations and the sources of the edges,
  the inverse degrees, and the mean-aggregated node features: the same operations, in the same order, as the
  reference's first stages, so the same arrays. The first region then leaves the first layer of that aggregate, which is
  the reference's first hidden array.
-/
import proofs.«121523_j35639638622631_1_alg».proof.Proof.Gen.KernelIdeal.Frame
import proofs.«121523_j35639638622631_1_alg».proof.Proof.Gen.ReferenceIdeal.Read
import proofs.«121523_j35639638622631_1_alg».proof.Proof.RefLayers
import proofs.«121523_j35639638622631_1_alg».proof.Proof.CarryEdges
import proofs.«121523_j35639638622631_1_alg».proof.Proof.CarryArgs
import proofs.«121523_j35639638622631_1_alg».proof.Proof.LibRowBias
import proofs.«121523_j35639638622631_1_alg».proof.Proof.Region0
import Idealize.ShloMosaic.Lib.StableHlo.Run

set_option maxRecDepth 16384

noncomputable section

namespace Cert.KernelIdeal.Thread

open Cert.KernelIdeal Cert.KernelIdeal.Gen Cert.MeanNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 8000000 in
/-- The destinations of the edges after the first stretch. -/
theorem rows_W1 (c : Dev nD) :
    W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  simp only [hostOps0]
  after_results_simp <;> rfl

set_option maxHeartbeats 8000000 in
/-- The sources of the edges after the first stretch. -/
theorem cols_W1 (c : Dev nD) :
    W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  simp only [hostOps0]
  after_results_simp <;> rfl

set_option maxHeartbeats 8000000 in
/-- The inverse degrees after the first stretch. -/
theorem deg_W1 (c : Dev nD) :
    W1 m ρ c (Proc.devRef .tc main_v12) = Cert.ReferenceIdeal.Read.val_main_v12 (F := Ideal) (m ((c : Thread nD τ).loc main_arg1)) := by
  show StableHlo.after hostOps0 (W0 m ρ c) (Proc.devRef .tc main_v12) = _
  simp only [hostOps0]
  after_results_simp <;> rfl

set_option maxHeartbeats 8000000 in
/-- The mean-aggregated node features after the first stretch. -/
theorem agg0 (c : Dev nD) :
    (W1 m ρ c (Proc.devRef .tc main_v24) : S100000x6.Idx → EReal) = Cert.ReferenceIdeal.Read.val_main_v24 (F := Ideal) (m ((c : Thread nD τ).loc main_arg0)) (m ((c : Thread nD τ).loc main_arg1)) := by
  show StableHlo.after hostOps0 (W0 m ρ c) (Proc.devRef .tc main_v24) = _
  simp only [hostOps0]
  after_results_simp <;> rfl

set_option maxHeartbeats 8000000 in
/-- The first bias, kept as a row, after the first stretch. -/
theorem bias0 (c : Dev nD) :
    (fun q : Fin 64 => (W1 m ρ c (Proc.devRef .tc main_v25) : S1x64.Idx → EReal) (ix2 (0 : Fin 1) q))
      = fun q => (m ((c : Thread nD τ).loc main_arg3)) (ix1 q) := by
  have e : (W1 m ρ c (Proc.devRef .tc main_v25) : S1x64.Idx → EReal)
      = shapeCast S1x64 (m ((c : Thread nD τ).loc main_arg3)) shapeCasts_S64_S1x64 := by
    show StableHlo.after hostOps0 (W0 m ρ c) (Proc.devRef .tc main_v25) = _
    simp only [hostOps0]
    after_results_simp <;> rfl
  rw [e]
  exact funext fun q => Cert.RowBias.castRow_apply _ _ q

/-- The first hidden array, at the exit of the first region. -/
theorem hidden1 (c : Dev nD) :
    (W2 m ρ c (Proc.devRef .tc main_v26) : S100000x64.Idx → EReal)
      = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) := by
  refine (W2_arr m ρ c (3 : Fin cfg0.W)).trans ?_
  refine (Cert.KernelIdeal.Layers.final0 (V1 m ρ) c).trans ?_
  show layerFirst (R := 100000) (K := 6) (N := 64) (W1 m ρ c (Proc.devRef .tc main_v24)) (W1 m ρ c (Proc.devRef .tc main_arg2))
      (fun q => (W1 m ρ c (Proc.devRef .tc main_v25) : S1x64.Idx → EReal) (ix2 (0 : Fin 1) q)) = _
  rw [agg0 m ρ c, Cert.KernelIdeal.CarryArgs.main_arg2_W1 m ρ c, bias0 m ρ c]
  exact (Cert.ReferenceIdeal.RefLayers.hidden1 _ _ _ _).symm

end Cert.KernelIdeal.Thread

end
-- ==== Proof.Region1.lean ====
/-
  Region 1: what its output array holds after the ten grid points.

  Grid point t stages rows 10000 t .. 10000 t + 9999 of the aggregated input [100000, 64] and of the previous hidden
  array [100000, 64], the whole weight matrix [64, 64] and the whole bias row [1, 64], and writes back the same rows of
  the output [100000, 64]. The body's one store is the thresholded affine image of the staged rows plus the staged rows
  of the previous hidden array, so what point t writes back is block t of the whole-array middle layer of the arrays as
  the region finds them. The ten blocks tile the output (row r lies in block r / 10000), so after the region the output
  array is that layer everywhere.
-/
import proofs.«121523_j35639638622631_1_alg».proof.Proof.Gen.KernelIdeal.Frame
import proofs.«121523_j35639638622631_1_alg».proof.Proof.LibLayerLaw
import Idealize.ShloMosaic.Lib.Pipeline.Value
import Idealize.ShloMosaic.Lib.ValueIdx

set_option maxRecDepth 16384

noncomputable section

open scoped BigOperators

namespace Cert.KernelIdeal.Layers1

open Cert.KernelIdeal Cert.KernelIdeal.Gen Cert.MeanNet Cert.DenseRow
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's stored value at entry (p, q) of a block: the thresholded affine image of row p of the staged rows, plus
    the previous hidden array's entry. -/
theorem pay_apply (x0 : Vec Ideal S10000x64 .f32) (x1 : Vec Ideal S64x64 .f32) (x2 : Vec Ideal S1x64 .f32)
    (x3 : Vec Ideal S10000x64 .f32) (p : Fin 10000) (q : Fin 64) :
    k1_pay1 (F := Ideal) x0 x1 x2 x3 (ix2 p q)
      = max (denseRow (fun k => x0 (ix2 p k)) (fun k c => x1 (ix2 k c)) (fun c => x2 (ix2 (0 : Fin 1) c)) q) 0
        + x3 (ix2 p q) := by
  show max (addf (matmul (DotDims.plain 10000 64 64) none (truncf .bf16 (shapeCast S10000x64 x0 shapeCasts_S10000x64_S10000x64) bitsLt_bf16_f32)
        (truncf .bf16 x1 bitsLt_bf16_f32) (constant (F := Ideal) S10000x64 .f32 0x00000000#32))
      (broadcastTo S10000x64 (shapeCast S1x64 x2 shapeCasts_S1x64_S1x64) broadcasts_S1x64_S10000x64) (ix2 p q))
    (broadcast (α := Ideal .f32) S10000x64 (Scalar.ofBits (F := Ideal) .f32 0x00000000#32) (ix2 p q))
    + shapeCast S10000x64 x3 shapeCasts_S10000x64_S10000x64 (ix2 p q) = _
  rw [shapeCast_self x3 shapeCasts_S10000x64_S10000x64]
  exact congrArg (· + x3 (ix2 p q)) (congrArg₂ max (kernelAffine_apply none x0 x1 x2 _ _ _ _ p q) (splatZero_apply _))

variable (V : (c : Dev nD) → (b : Ref sig .tc) → Buf (Elt Ideal) ((c : Thread nD τ).loc b))

/-- The printed index maps over the ten points: the row windows sit at block t, the weights and the bias at block 0. -/
theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The array the region leaves, as one function of the arrays it finds. -/
abbrev G (c : Dev nD) : S100000x64.Idx → EReal :=
  layerNext (R := 100000) (K := 64) (N := 64) (V c main_v38) (V c main_arg4) (fun q => V c main_v39 (ix2 (0 : Fin 1) q)) (V c main_v26)

/-- What point t writes back is block t of the middle layer. -/
theorem flushed (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero offsets_zero]
  simp only [View.ld_unit_zero (S := S10000x64) offsets_zero, View.ld_unit_zero (S := S64x64) offsets_zero,
    View.ld_unit_zero (S := S1x64) offsets_zero]
  obtain ⟨e0, e1, e2, e3, e4, e5, e6, e7, e8, e9⟩ := idx t
  funext j
  obtain ⟨p, q, rfl⟩ : ∃ (p : Fin 10000) (q : Fin 64), j = ix2 p q := ⟨j 0, j 1, eq_ix2 j⟩
  refine (pay_apply (iblk1 V c 0 t) (iblk1 V c 1 t) (iblk1 V c 2 t) (iblk1 V c 3 t) p q).trans ?_
  have ht : t.val < 10 := by
    have h := t.isLt
    have hN : grid1.N = 10 := N_1
    change t.val < grid1.N at h
    omega
  have hrow : t.val * 10000 + p.val < 100000 := by have := p.isLt; omega
  have hemb : ((cfg1.win 4).blk t).view.emb (ix2 p q) = ix2 (n0 := 100000) (n1 := 64) ⟨t.val * 10000 + p.val, hrow⟩ q := by
    funext a; apply Fin.ext
    match a with
    | ⟨0, _⟩ => show win1_4.index t (0 : Fin 2) * 10000 + 1 * p.val = t.val * 10000 + p.val; omega
    | ⟨1, _⟩ => show win1_4.index t (1 : Fin 2) * 64 + 1 * q.val = q.val; omega
  have h1 : (fun k : Fin 64 => iblk1 V c 0 t (ix2 p k))
      = fun k => V c main_v38 (ix2 (n0 := 100000) (n1 := 64) ⟨t.val * 10000 + p.val, hrow⟩ k) := funext fun k => by
    show V c main_v38 (((cfg1.win 0).blk t).view.emb (ix2 p k)) = _
    refine congrArg (V c main_v38) ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  have h2 : (fun (k : Fin 64) (c' : Fin 64) => iblk1 V c 1 t (ix2 k c'))
      = fun k c' => V c main_arg4 (ix2 k c') := funext fun k => funext fun c' => by
    show V c main_arg4 (((cfg1.win 1).blk t).view.emb (ix2 k c')) = _
    refine congrArg (V c main_arg4) ?_
    funext a; apply Fin.ext
    match a with
    | ⟨0, _⟩ => show win1_1.index t (0 : Fin 2) * 64 + 1 * k.val = k.val; omega
    | ⟨1, _⟩ => show win1_1.index t (1 : Fin 2) * 64 + 1 * c'.val = c'.val; omega
  have h3 : (fun c' : Fin 64 => iblk1 V c 2 t (ix2 (0 : Fin 1) c'))
      = fun c' => V c main_v39 (ix2 (0 : Fin 1) c') := funext fun c' => by
    show V c main_v39 (((cfg1.win 2).blk t).view.emb (ix2 (0 : Fin 1) c')) = _
    refine congrArg (V c main_v39) ?_
    funext a; apply Fin.ext
    match a with
    | ⟨0, _⟩ => show win1_2.index t (0 : Fin 2) * 1 + 1 * 0 = 0; omega
    | ⟨1, _⟩ => show win1_2.index t (1 : Fin 2) * 64 + 1 * c'.val = c'.val; omega
  have h4 : iblk1 V c 3 t (ix2 p q)
      = V c main_v26 (ix2 (n0 := 100000) (n1 := 64) ⟨t.val * 10000 + p.val, hrow⟩ q) := by
    show V c main_v26 (((cfg1.win 3).blk t).view.emb (ix2 p q)) = _
    refine congrArg (V c main_v26) ?_
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  show _ = max (affine (R := 100000) (K := 64) (N := 64) (V c main_v38) (V c main_arg4) (fun q => V c main_v39 (ix2 (0 : Fin 1) q))
    (((cfg1.win 4).blk t).view.emb (ix2 p q))) 0 + V c main_v26 (((cfg1.win 4).blk t).view.emb (ix2 p q))
  rw [hemb, affine_ix2, h1, h2, h3, h4]

/-- An index of the output array is in point t's block iff each coordinate is in the block's range on its axis. -/
theorem mem_blk (t : Fin cfg1.N) (i : S100000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v40).slice (win1_4.rect t)).set ↔ _
  rw [View.set_slice_whole, Rect.mem_set_unit]
  exact Iff.rfl

/-- Every index of the output array lies in the block of the point its row selects. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 10 := N_1
  have hlt : (i 0).val / 10000 < grid1.N := by omega
  refine ⟨⟨(i 0).val / 10000, hlt⟩, flush1_4 _, ?_⟩
  rw [mem_blk]
  obtain ⟨-, -, -, -, -, -, -, -, e8, e9⟩ := idx ⟨(i 0).val / 10000, hlt⟩
  intro a
  match a with
  | ⟨0, _⟩ =>
    show win1_4.index ⟨(i 0).val / 10000, hlt⟩ (0 : Fin 2) * 10000 ≤ (i 0).val
      ∧ (i 0).val < win1_4.index ⟨(i 0).val / 10000, hlt⟩ (0 : Fin 2) * 10000 + 10000
    rw [e8]; show (i 0).val / 10000 * 10000 ≤ (i 0).val ∧ (i 0).val < (i 0).val / 10000 * 10000 + 10000; omega
  | ⟨1, _⟩ =>
    show win1_4.index ⟨(i 0).val / 10000, hlt⟩ (1 : Fin 2) * 64 ≤ (i 1).val
      ∧ (i 1).val < win1_4.index ⟨(i 0).val / 10000, hlt⟩ (1 : Fin 2) * 64 + 64
    rw [e9]; omega

/-- After the region its output array is the middle layer of the arrays the region found. -/
theorem final (c : Dev nD) : (dat1 V c).arrAt 4 cfg1.N = G V c :=
  (dat1 V c).arrAt_eq_of_cover 4 (G V c) (fun t _ => flushed V c t) cover

end Cert.KernelIdeal.Layers1

end
-- ==== Proof.Thread1.lean ====
/-
  The kernel program through its second region, against the reference's stages.

  The stretch before the region gathers the previous hidden array along the edges' sources, adds the gathered rows into
  their destinations and scales each row by its node's inverse degree: the same operations as the reference's, on the
  same hidden array (the previous module), the same edge lists and the same inverse degrees (carried unchanged from the
  first stretch), so the same aggregate. The region then leaves the middle layer of that aggregate plus the previous
  hidden array, which is the reference's next hidden array.
-/
import proofs.«121523_j35639638622631_1_alg».proof.Proof.Gen.KernelIdeal.Frame
import proofs.«121523_j35639638622631_1_alg».proof.Proof.Gen.ReferenceIdeal.Read
import proofs.«121523_j35639638622631_1_alg».proof.Proof.RefLayers
import proofs.«121523_j35639638622631_1_alg».proof.Proof.CarryEdges
import proofs.«121523_j35639638622631_1_alg».proof.Proof.CarryArgs
import proofs.«121523_j35639638622631_1_alg».proof.Proof.LibRowBias
import proofs.«121523_j35639638622631_1_alg».proof.Proof.Thread0
import proofs.«121523_j35639638622631_1_alg».proof.Proof.Region1
import Idealize.ShloMosaic.Lib.StableHlo.Run

set_option maxRecDepth 16384

noncomputable section

namespace Cert.KernelIdeal.Thread

open Cert.KernelIdeal Cert.KernelIdeal.Gen Cert.MeanNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 8000000 in
/-- The mean-aggregated previous hidden array, at the entry of the region. -/
theorem agg1 (c : Dev nD) :
    (W3 m ρ c (Proc.devRef .tc main_v38) : S100000x64.Idx → EReal)
      = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v38) = _
  simp only [hostOps1]
  after_results_simp
  rw [hidden1 m ρ c, Cert.KernelIdeal.CarryEdges.main_v1_W2 m ρ c, Cert.KernelIdeal.CarryEdges.main_v3_W2 m ρ c, Cert.KernelIdeal.CarryEdges.main_v12_W2 m ρ c,
    rows_W1 m ρ c, cols_W1 m ρ c, deg_W1 m ρ c]
  all_goals rfl

set_option maxHeartbeats 8000000 in
/-- The layer's bias, kept as a row, at the entry of the region. -/
theorem bias1 (c : Dev nD) :
    (fun q : Fin 64 => (W3 m ρ c (Proc.devRef .tc main_v39) : S1x64.Idx → EReal) (ix2 (0 : Fin 1) q))
      = fun q => (m ((c : Thread nD τ).loc main_arg5)) (ix1 q) := by
  have e : (W3 m ρ c (Proc.devRef .tc main_v39) : S1x64.Idx → EReal)
      = shapeCast S1x64 (m ((c : Thread nD τ).loc main_arg5)) shapeCasts_S64_S1x64 := by
    show StableHlo.after hostOps1 (W2 m ρ c) (Proc.devRef .tc main_v39) = _
    simp only [hostOps1]
    after_results_simp
    rw [Cert.KernelIdeal.CarryArgs.main_arg5_exit m ρ c]
    all_goals rfl
  rw [e]
  exact funext fun q => Cert.RowBias.castRow_apply _ _ q

/-- The next hidden array, at the exit of the region. -/
theorem hidden2 (c : Dev nD) :
    (W4 m ρ c (Proc.devRef .tc main_v40) : S100000x64.Idx → EReal)
      = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c (4 : Fin cfg1.W)).trans ?_
  refine (Cert.KernelIdeal.Layers1.final (V3 m ρ) c).trans ?_
  show layerNext (R := 100000) (K := 64) (N := 64) (W3 m ρ c (Proc.devRef .tc main_v38)) (W3 m ρ c (Proc.devRef .tc main_arg4))
      (fun q => (W3 m ρ c (Proc.devRef .tc main_v39) : S1x64.Idx → EReal) (ix2 (0 : Fin 1) q))
      (W3 m ρ c (Proc.devRef .tc main_v26)) = _
  rw [agg1 m ρ c, Cert.KernelIdeal.CarryArgs.main_arg4_entry m ρ c, bias1 m ρ c, Cert.KernelIdeal.CarryEdges.main_v26_W3 m ρ c, hidden1 m ρ c]
  exact (Cert.ReferenceIdeal.RefLayers.hidden2 _ _ _ _ _ _).symm

end Cert.KernelIdeal.Thread

end
-- ==== Proof.Region2.lean ====
/-
  Region 2: what its output array holds after the ten grid points.

  Grid point t stages rows 10000 t .. 10000 t + 9999 of the aggregated input [100000, 64] and of the previous hidden
  array [100000, 64], the whole weight matrix [64, 64] and the whole bias row [1, 64], and writes back the same rows of
  the output [100000, 64]. The body's one store is the thresholded affine image of the staged rows plus the staged rows
  of the previous hidden array, so what point t writes back is block t of the whole-array middle layer of the arrays as
  the region finds them. The ten blocks tile the output (row r lies in block r / 10000), so after the region the output
  array is that layer everywhere.
-/
import proofs.«121523_j35639638622631_1_alg».proof.Proof.Gen.KernelIdeal.Frame
import proofs.«121523_j35639638622631_1_alg».proof.Proof.LibLayerLaw
import Idealize.ShloMosaic.Lib.Pipeline.Value
import Idealize.ShloMosaic.Lib.ValueIdx

set_option maxRecDepth 16384

noncomputable section

open scoped BigOperators

namespace Cert.KernelIdeal.Layers2

open Cert.KernelIdeal Cert.KernelIdeal.Gen Cert.MeanNet Cert.DenseRow
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's stored value at entry (p, q) of a block: the thresholded affine image of row p of the staged rows, plus
    the previous hidden array's entry. -/
theorem pay_apply (x0 : Vec Ideal S10000x64 .f32) (x1 : Vec Ideal S64x64 .f32) (x2 : Vec Ideal S1x64 .f32)
    (x3 : Vec Ideal S10000x64 .f32) (p : Fin 10000) (q : Fin 64) :
    k2_pay1 (F := Ideal) x0 x1 x2 x3 (ix2 p q)
      = max (denseRow (fun k => x0 (ix2 p k)) (fun k c => x1 (ix2 k c)) (fun c => x2 (ix2 (0 : Fin 1) c)) q) 0
        + x3 (ix2 p q) := by
  show max (addf (matmul (DotDims.plain 10000 64 64) none (truncf .bf16 (shapeCast S10000x64 x0 shapeCasts_S10000x64_S10000x64) bitsLt_bf16_f32)
        (truncf .bf16 x1 bitsLt_bf16_f32) (constant (F := Ideal) S10000x64 .f32 0x00000000#32))
      (broadcastTo S10000x64 (shapeCast S1x64 x2 shapeCasts_S1x64_S1x64) broadcasts_S1x64_S10000x64) (ix2 p q))
    (broadcast (α := Ideal .f32) S10000x64 (Scalar.ofBits (F := Ideal) .f32 0x00000000#32) (ix2 p q))
    + shapeCast S10000x64 x3 shapeCasts_S10000x64_S10000x64 (ix2 p q) = _
  rw [shapeCast_self x3 shapeCasts_S10000x64_S10000x64]
  exact congrArg (· + x3 (ix2 p q)) (congrArg₂ max (kernelAffine_apply none x0 x1 x2 _ _ _ _ p q) (splatZero_apply _))

variable (V : (c : Dev nD) → (b : Ref sig .tc) → Buf (Elt Ideal) ((c : Thread nD τ).loc b))

/-- The printed index maps over the ten points: the row windows sit at block t, the weights and the bias at block 0. -/
theorem idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The array the region leaves, as one function of the arrays it finds. -/
abbrev G (c : Dev nD) : S100000x64.Idx → EReal :=
  layerNext (R := 100000) (K := 64) (N := 64) (V c main_v52) (V c main_arg6) (fun q => V c main_v53 (ix2 (0 : Fin 1) q)) (V c main_v40)

/-- What point t writes back is block t of the middle layer. -/
theorem flushed (c : Dev nD) (t : Fin cfg2.N) :
    (dat2 V c).flushed 4 t = ((cfg2.win 4).blk t).view.read (Elt Ideal) (G V c) := by
  show (cfg2.win 4).cut (grid2.coords t) ((dat2 V c).after 4 t) = _
  rw [after2_4]
  unfold out2_4
  rw [View.canon_unit_zero offsets_zero]
  simp only [View.ld_unit_zero (S := S10000x64) offsets_zero, View.ld_unit_zero (S := S64x64) offsets_zero,
    View.ld_unit_zero (S := S1x64) offsets_zero]
  obtain ⟨e0, e1, e2, e3, e4, e5, e6, e7, e8, e9⟩ := idx t
  funext j
  obtain ⟨p, q, rfl⟩ : ∃ (p : Fin 10000) (q : Fin 64), j = ix2 p q := ⟨j 0, j 1, eq_ix2 j⟩
  refine (pay_apply (iblk2 V c 0 t) (iblk2 V c 1 t) (iblk2 V c 2 t) (iblk2 V c 3 t) p q).trans ?_
  have ht : t.val < 10 := by
    have h := t.isLt
    have hN : grid2.N = 10 := N_2
    change t.val < grid2.N at h
    omega
  have hrow : t.val * 10000 + p.val < 100000 := by have := p.isLt; omega
  have hemb : ((cfg2.win 4).blk t).view.emb (ix2 p q) = ix2 (n0 := 100000) (n1 := 64) ⟨t.val * 10000 + p.val, hrow⟩ q := by
    funext a; apply Fin.ext
    match a with
    | ⟨0, _⟩ => show win2_4.index t (0 : Fin 2) * 10000 + 1 * p.val = t.val * 10000 + p.val; omega
    | ⟨1, _⟩ => show win2_4.index t (1 : Fin 2) * 64 + 1 * q.val = q.val; omega
  have h1 : (fun k : Fin 64 => iblk2 V c 0 t (ix2 p k))
      = fun k => V c main_v52 (ix2 (n0 := 100000) (n1 := 64) ⟨t.val * 10000 + p.val, hrow⟩ k) := funext fun k => by
    show V c main_v52 (((cfg2.win 0).blk t).view.emb (ix2 p k)) = _
    refine congrArg (V c main_v52) ?_
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  have h2 : (fun (k : Fin 64) (c' : Fin 64) => iblk2 V c 1 t (ix2 k c'))
      = fun k c' => V c main_arg6 (ix2 k c') := funext fun k => funext fun c' => by
    show V c main_arg6 (((cfg2.win 1).blk t).view.emb (ix2 k c')) = _
    refine congrArg (V c main_arg6) ?_
    funext a; apply Fin.ext
    match a with
    | ⟨0, _⟩ => show win2_1.index t (0 : Fin 2) * 64 + 1 * k.val = k.val; omega
    | ⟨1, _⟩ => show win2_1.index t (1 : Fin 2) * 64 + 1 * c'.val = c'.val; omega
  have h3 : (fun c' : Fin 64 => iblk2 V c 2 t (ix2 (0 : Fin 1) c'))
      = fun c' => V c main_v53 (ix2 (0 : Fin 1) c') := funext fun c' => by
    show V c main_v53 (((cfg2.win 2).blk t).view.emb (ix2 (0 : Fin 1) c')) = _
    refine congrArg (V c main_v53) ?_
    funext a; apply Fin.ext
    match a with
    | ⟨0, _⟩ => show win2_2.index t (0 : Fin 2) * 1 + 1 * 0 = 0; omega
    | ⟨1, _⟩ => show win2_2.index t (1 : Fin 2) * 64 + 1 * c'.val = c'.val; omega
  have h4 : iblk2 V c 3 t (ix2 p q)
      = V c main_v40 (ix2 (n0 := 100000) (n1 := 64) ⟨t.val * 10000 + p.val, hrow⟩ q) := by
    show V c main_v40 (((cfg2.win 3).blk t).view.emb (ix2 p q)) = _
    refine congrArg (V c main_v40) ?_
    funext a; apply Fin.ext
    match a with
    | ⟨0, _⟩ => show win2_3.index t (0 : Fin 2) * 10000 + 1 * p.val = t.val * 10000 + p.val; omega
    | ⟨1, _⟩ => show win2_3.index t (1 : Fin 2) * 64 + 1 * q.val = q.val; omega
  show _ = max (affine (R := 100000) (K := 64) (N := 64) (V c main_v52) (V c main_arg6) (fun q => V c main_v53 (ix2 (0 : Fin 1) q))
    (((cfg2.win 4).blk t).view.emb (ix2 p q))) 0 + V c main_v40 (((cfg2.win 4).blk t).view.emb (ix2 p q))
  rw [hemb, affine_ix2, h1, h2, h3, h4]

/-- An index of the output array is in point t's block iff each coordinate is in the block's range on its axis. -/
theorem mem_blk (t : Fin cfg2.N) (i : S100000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v54).slice (win2_4.rect t)).set ↔ _
  rw [View.set_slice_whole, Rect.mem_set_unit]
  exact Iff.rfl

/-- Every index of the output array lies in the block of the point its row selects. -/
theorem cover (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : grid2.N = 10 := N_2
  have hlt : (i 0).val / 10000 < grid2.N := by omega
  refine ⟨⟨(i 0).val / 10000, hlt⟩, flush2_4 _, ?_⟩
  rw [mem_blk]
  obtain ⟨-, -, -, -, -, -, -, -, e8, e9⟩ := idx ⟨(i 0).val / 10000, hlt⟩
  intro a
  match a with
  | ⟨0, _⟩ =>
    show win2_4.index ⟨(i 0).val / 10000, hlt⟩ (0 : Fin 2) * 10000 ≤ (i 0).val
      ∧ (i 0).val < win2_4.index ⟨(i 0).val / 10000, hlt⟩ (0 : Fin 2) * 10000 + 10000
    rw [e8]; show (i 0).val / 10000 * 10000 ≤ (i 0).val ∧ (i 0).val < (i 0).val / 10000 * 10000 + 10000; omega
  | ⟨1, _⟩ =>
    show win2_4.index ⟨(i 0).val / 10000, hlt⟩ (1 : Fin 2) * 64 ≤ (i 1).val
      ∧ (i 1).val < win2_4.index ⟨(i 0).val / 10000, hlt⟩ (1 : Fin 2) * 64 + 64
    rw [e9]; omega

/-- After the region its output array is the middle layer of the arrays the region found. -/
theorem final (c : Dev nD) : (dat2 V c).arrAt 4 cfg2.N = G V c :=
  (dat2 V c).arrAt_eq_of_cover 4 (G V c) (fun t _ => flushed V c t) cover

end Cert.KernelIdeal.Layers2

end
-- ==== Proof.Thread2.lean ====
/-
  The kernel program through its third region, against the reference's stages.

  The stretch before the region gathers the previous hidden array along the edges' sources, adds the gathered rows into
  their destinations and scales each row by its node's inverse degree: the same operations as the reference's, on the
  same hidden array (the previous module), the same edge lists and the same inverse degrees (carried unchanged from the
  first stretch), so the same aggregate. The region then leaves the middle layer of that aggregate plus the previous
  hidden array, which is the reference's next hidden array.
-/
import proofs.«121523_j35639638622631_1_alg».proof.Proof.Gen.KernelIdeal.Frame
import proofs.«121523_j35639638622631_1_alg».proof.Proof.Gen.ReferenceIdeal.Read
import proofs.«121523_j35639638622631_1_alg».proof.Proof.RefLayers
import proofs.«121523_j35639638622631_1_alg».proof.Proof.CarryEdges
import proofs.«121523_j35639638622631_1_alg».proof.Proof.CarryArgs
import proofs.«121523_j35639638622631_1_alg».proof.Proof.LibRowBias
import proofs.«121523_j35639638622631_1_alg».proof.Proof.Thread1
import proofs.«121523_j35639638622631_1_alg».proof.Proof.Region2
import Idealize.ShloMosaic.Lib.StableHlo.Run

set_option maxRecDepth 16384

noncomputable section

namespace Cert.KernelIdeal.Thread

open Cert.KernelIdeal Cert.KernelIdeal.Gen Cert.MeanNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 8000000 in
/-- The mean-aggregated previous hidden array, at the entry of the region. -/
theorem agg2 (c : Dev nD) :
    (W5 m ρ c (Proc.devRef .tc main_v52) : S100000x64.Idx → EReal)
      = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W4 m ρ c) (Proc.devRef .tc main_v52) = _
  simp only [hostOps2]
  after_results_simp
  rw [hidden2 m ρ c, Cert.KernelIdeal.CarryEdges.main_v1_at4 m ρ c, Cert.KernelIdeal.CarryEdges.main_v3_at4 m ρ c, Cert.KernelIdeal.CarryEdges.main_v12_at4 m ρ c,
    rows_W1 m ρ c, cols_W1 m ρ c, deg_W1 m ρ c]
  all_goals rfl

set_option maxHeartbeats 8000000 in
/-- The layer's bias, kept as a row, at the entry of the region. -/
theorem bias2 (c : Dev nD) :
    (fun q : Fin 64 => (W5 m ρ c (Proc.devRef .tc main_v53) : S1x64.Idx → EReal) (ix2 (0 : Fin 1) q))
      = fun q => (m ((c : Thread nD τ).loc main_arg7)) (ix1 q) := by
  have e : (W5 m ρ c (Proc.devRef .tc main_v53) : S1x64.Idx → EReal)
      = shapeCast S1x64 (m ((c : Thread nD τ).loc main_arg7)) shapeCasts_S64_S1x64 := by
    show StableHlo.after hostOps2 (W4 m ρ c) (Proc.devRef .tc main_v53) = _
    simp only [hostOps2]
    after_results_simp
    rw [Cert.KernelIdeal.CarryArgs.main_arg7_exit m ρ c]
    all_goals rfl
  rw [e]
  exact funext fun q => Cert.RowBias.castRow_apply _ _ q

/-- The next hidden array, at the exit of the region. -/
theorem hidden3 (c : Dev nD) :
    (W6 m ρ c (Proc.devRef .tc main_v54) : S100000x64.Idx → EReal)
      = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c (4 : Fin cfg2.W)).trans ?_
  refine (Cert.KernelIdeal.Layers2.final (V5 m ρ) c).trans ?_
  show layerNext (R := 100000) (K := 64) (N := 64) (W5 m ρ c (Proc.devRef .tc main_v52)) (W5 m ρ c (Proc.devRef .tc main_arg6))
      (fun q => (W5 m ρ c (Proc.devRef .tc main_v53) : S1x64.Idx → EReal) (ix2 (0 : Fin 1) q))
      (W5 m ρ c (Proc.devRef .tc main_v40)) = _
  rw [agg2 m ρ c, Cert.KernelIdeal.CarryArgs.main_arg6_entry m ρ c, bias2 m ρ c, Cert.KernelIdeal.CarryEdges.main_v40_W5 m ρ c, hidden2 m ρ c]
  exact (Cert.ReferenceIdeal.RefLayers.hidden3 _ _ _ _ _ _ _ _).symm

end Cert.KernelIdeal.Thread

end
-- ==== Proof.Region3.lean ====
/-
  Region 3: what its output array holds after the ten grid points.

  Grid point t stages rows 10000 t .. 10000 t + 9999 of the aggregated input [100000, 64] and of the previous hidden
  array [100000, 64], the whole weight matrix [64, 64] and the whole bias row [1, 64], and writes back the same rows of
  the output [100000, 64]. The body's one store is the thresholded affine image of the staged rows plus the staged rows
  of the previous hidden array, so what point t writes back is block t of the whole-array middle layer of the arrays as
  the region finds them. The ten blocks tile the output (row r lies in block r / 10000), so after the region the output
  array is that layer everywhere.
-/
import proofs.«121523_j35639638622631_1_alg».proof.Proof.Gen.KernelIdeal.Frame
import proofs.«121523_j35639638622631_1_alg».proof.Proof.LibLayerLaw
import Idealize.ShloMosaic.Lib.Pipeline.Value
import Idealize.ShloMosaic.Lib.ValueIdx

set_option maxRecDepth 16384

noncomputable section

open scoped BigOperators

namespace Cert.KernelIdeal.Layers3

open Cert.KernelIdeal Cert.KernelIdeal.Gen Cert.MeanNet Cert.DenseRow
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's stored value at entry (p, q) of a block: the thresholded affine image of row p of the staged rows, plus
    the previous hidden array's entry. -/
theorem pay_apply (x0 : Vec Ideal S10000x64 .f32) (x1 : Vec Ideal S64x64 .f32) (x2 : Vec Ideal S1x64 .f32)
    (x3 : Vec Ideal S10000x64 .f32) (p : Fin 10000) (q : Fin 64) :
    k3_pay1 (F := Ideal) x0 x1 x2 x3 (ix2 p q)
      = max (denseRow (fun k => x0 (ix2 p k)) (fun k c => x1 (ix2 k c)) (fun c => x2 (ix2 (0 : Fin 1) c)) q) 0
        + x3 (ix2 p q) := by
  show max (addf (matmul (DotDims.plain 10000 64 64) none (truncf .bf16 (shapeCast S10000x64 x0 shapeCasts_S10000x64_S10000x64) bitsLt_bf16_f32)
        (truncf .bf16 x1 bitsLt_bf16_f32) (constant (F := Ideal) S10000x64 .f32 0x00000000#32))
      (broadcastTo S10000x64 (shapeCast S1x64 x2 shapeCasts_S1x64_S1x64) broadcasts_S1x64_S10000x64) (ix2 p q))
    (broadcast (α := Ideal .f32) S10000x64 (Scalar.ofBits (F := Ideal) .f32 0x00000000#32) (ix2 p q))
    + shapeCast S10000x64 x3 shapeCasts_S10000x64_S10000x64 (ix2 p q) = _
  rw [shapeCast_self x3 shapeCasts_S10000x64_S10000x64]
  exact congrArg (· + x3 (ix2 p q)) (congrArg₂ max (kernelAffine_apply none x0 x1 x2 _ _ _ _ p q) (splatZero_apply _))

variable (V : (c : Dev nD) → (b : Ref sig .tc) → Buf (Elt Ideal) ((c : Thread nD τ).loc b))

/-- The printed index maps over the ten points: the row windows sit at block t, the weights and the bias at block 0. -/
theorem idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The array the region leaves, as one function of the arrays it finds. -/
abbrev G (c : Dev nD) : S100000x64.Idx → EReal :=
  layerNext (R := 100000) (K := 64) (N := 64) (V c main_v66) (V c main_arg8) (fun q => V c main_v67 (ix2 (0 : Fin 1) q)) (V c main_v54)

/-- What point t writes back is block t of the middle layer. -/
theorem flushed (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero offsets_zero]
  simp only [View.ld_unit_zero (S := S10000x64) offsets_zero, View.ld_unit_zero (S := S64x64) offsets_zero,
    View.ld_unit_zero (S := S1x64) offsets_zero]
  obtain ⟨e0, e1, e2, e3, e4, e5, e6, e7, e8, e9⟩ := idx t
  funext j
  obtain ⟨p, q, rfl⟩ : ∃ (p : Fin 10000) (q : Fin 64), j = ix2 p q := ⟨j 0, j 1, eq_ix2 j⟩
  refine (pay_apply (iblk3 V c 0 t) (iblk3 V c 1 t) (iblk3 V c 2 t) (iblk3 V c 3 t) p q).trans ?_
  have ht : t.val < 10 := by
    have h := t.isLt
    have hN : grid3.N = 10 := N_3
    change t.val < grid3.N at h
    omega
  have hrow : t.val * 10000 + p.val < 100000 := by have := p.isLt; omega
  have hemb : ((cfg3.win 4).blk t).view.emb (ix2 p q) = ix2 (n0 := 100000) (n1 := 64) ⟨t.val * 10000 + p.val, hrow⟩ q := by
    funext a; apply Fin.ext
    match a with
    | ⟨0, _⟩ => show win3_4.index t (0 : Fin 2) * 10000 + 1 * p.val = t.val * 10000 + p.val; omega
    | ⟨1, _⟩ => show win3_4.index t (1 : Fin 2) * 64 + 1 * q.val = q.val; omega
  have h1 : (fun k : Fin 64 => iblk3 V c 0 t (ix2 p k))
      = fun k => V c main_v66 (ix2 (n0 := 100000) (n1 := 64) ⟨t.val * 10000 + p.val, hrow⟩ k) := funext fun k => by
    show V c main_v66 (((cfg3.win 0).blk t).view.emb (ix2 p k)) = _
    refine congrArg (V c main_v66) ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * k.val = k.val; omega
  have h2 : (fun (k : Fin 64) (c' : Fin 64) => iblk3 V c 1 t (ix2 k c'))
      = fun k c' => V c main_arg8 (ix2 k c') := funext fun k => funext fun c' => by
    show V c main_arg8 (((cfg3.win 1).blk t).view.emb (ix2 k c')) = _
    refine congrArg (V c main_arg8) ?_
    funext a; apply Fin.ext
    match a with
    | ⟨0, _⟩ => show win3_1.index t (0 : Fin 2) * 64 + 1 * k.val = k.val; omega
    | ⟨1, _⟩ => show win3_1.index t (1 : Fin 2) * 64 + 1 * c'.val = c'.val; omega
  have h3 : (fun c' : Fin 64 => iblk3 V c 2 t (ix2 (0 : Fin 1) c'))
      = fun c' => V c main_v67 (ix2 (0 : Fin 1) c') := funext fun c' => by
    show V c main_v67 (((cfg3.win 2).blk t).view.emb (ix2 (0 : Fin 1) c')) = _
    refine congrArg (V c main_v67) ?_
    funext a; apply Fin.ext
    match a with
    | ⟨0, _⟩ => show win3_2.index t (0 : Fin 2) * 1 + 1 * 0 = 0; omega
    | ⟨1, _⟩ => show win3_2.index t (1 : Fin 2) * 64 + 1 * c'.val = c'.val; omega
  have h4 : iblk3 V c 3 t (ix2 p q)
      = V c main_v54 (ix2 (n0 := 100000) (n1 := 64) ⟨t.val * 10000 + p.val, hrow⟩ q) := by
    show V c main_v54 (((cfg3.win 3).blk t).view.emb (ix2 p q)) = _
    refine congrArg (V c main_v54) ?_
    funext a; apply Fin.ext
    match a with
    | ⟨0, _⟩ => show win3_3.index t (0 : Fin 2) * 10000 + 1 * p.val = t.val * 10000 + p.val; omega
    | ⟨1, _⟩ => show win3_3.index t (1 : Fin 2) * 64 + 1 * q.val = q.val; omega
  show _ = max (affine (R := 100000) (K := 64) (N := 64) (V c main_v66) (V c main_arg8) (fun q => V c main_v67 (ix2 (0 : Fin 1) q))
    (((cfg3.win 4).blk t).view.emb (ix2 p q))) 0 + V c main_v54 (((cfg3.win 4).blk t).view.emb (ix2 p q))
  rw [hemb, affine_ix2, h1, h2, h3, h4]

/-- An index of the output array is in point t's block iff each coordinate is in the block's range on its axis. -/
theorem mem_blk (t : Fin cfg3.N) (i : S100000x64.Idx) :
    i ∈ ((cfg3.win 4).blk t).view.set ↔ ∀ a : Fin 2, win3_4.index t a * S10000x64.size a ≤ (i a).val
      ∧ (i a).val < win3_4.index t a * S10000x64.size a + S10000x64.size a := by
  show i ∈ ((View.whole main_v68).slice (win3_4.rect t)).set ↔ _
  rw [View.set_slice_whole, Rect.mem_set_unit]
  exact Iff.rfl

/-- Every index of the output array lies in the block of the point its row selects. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : grid3.N = 10 := N_3
  have hlt : (i 0).val / 10000 < grid3.N := by omega
  refine ⟨⟨(i 0).val / 10000, hlt⟩, flush3_4 _, ?_⟩
  rw [mem_blk]
  obtain ⟨-, -, -, -, -, -, -, -, e8, e9⟩ := idx ⟨(i 0).val / 10000, hlt⟩
  intro a
  match a with
  | ⟨0, _⟩ =>
    show win3_4.index ⟨(i 0).val / 10000, hlt⟩ (0 : Fin 2) * 10000 ≤ (i 0).val
      ∧ (i 0).val < win3_4.index ⟨(i 0).val / 10000, hlt⟩ (0 : Fin 2) * 10000 + 10000
    rw [e8]; show (i 0).val / 10000 * 10000 ≤ (i 0).val ∧ (i 0).val < (i 0).val / 10000 * 10000 + 10000; omega
  | ⟨1, _⟩ =>
    show win3_4.index ⟨(i 0).val / 10000, hlt⟩ (1 : Fin 2) * 64 ≤ (i 1).val
      ∧ (i 1).val < win3_4.index ⟨(i 0).val / 10000, hlt⟩ (1 : Fin 2) * 64 + 64
    rw [e9]; omega

/-- After the region its output array is the middle layer of the arrays the region found. -/
theorem final (c : Dev nD) : (dat3 V c).arrAt 4 cfg3.N = G V c :=
  (dat3 V c).arrAt_eq_of_cover 4 (G V c) (fun t _ => flushed V c t) cover

end Cert.KernelIdeal.Layers3

end
-- ==== Proof.Thread3.lean ====
/-
  The kernel program through its fourth region, against the reference's stages.

  The stretch before the region gathers the previous hidden array along the edges' sources, adds the gathered rows into
  their destinations and scales each row by its node's inverse degree: the same operations as the reference's, on the
  same hidden array (the previous module), the same edge lists and the same inverse degrees (carried unchanged from the
  first stretch), so the same aggregate. The region then leaves the middle layer of that aggregate plus the previous
  hidden array, which is the reference's next hidden array.
-/
import proofs.«121523_j35639638622631_1_alg».proof.Proof.Gen.KernelIdeal.Frame
import proofs.«121523_j35639638622631_1_alg».proof.Proof.Gen.ReferenceIdeal.Read
import proofs.«121523_j35639638622631_1_alg».proof.Proof.RefLayers
import proofs.«121523_j35639638622631_1_alg».proof.Proof.CarryEdges
import proofs.«121523_j35639638622631_1_alg».proof.Proof.CarryArgs
import proofs.«121523_j35639638622631_1_alg».proof.Proof.LibRowBias
import proofs.«121523_j35639638622631_1_alg».proof.Proof.Thread2
import proofs.«121523_j35639638622631_1_alg».proof.Proof.Region3
import Idealize.ShloMosaic.Lib.StableHlo.Run

set_option maxRecDepth 16384

noncomputable section

namespace Cert.KernelIdeal.Thread

open Cert.KernelIdeal Cert.KernelIdeal.Gen Cert.MeanNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 8000000 in
/-- The mean-aggregated previous hidden array, at the entry of the region. -/
theorem agg3 (c : Dev nD) :
    (W7 m ρ c (Proc.devRef .tc main_v66) : S100000x64.Idx → EReal)
      = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v66) = _
  simp only [hostOps3]
  after_results_simp
  rw [hidden3 m ρ c, Cert.KernelIdeal.CarryEdges.main_v1_at6 m ρ c, Cert.KernelIdeal.CarryEdges.main_v3_at6 m ρ c, Cert.KernelIdeal.CarryEdges.main_v12_at6 m ρ c,
    rows_W1 m ρ c, cols_W1 m ρ c, deg_W1 m ρ c]
  all_goals rfl

set_option maxHeartbeats 8000000 in
/-- The layer's bias, kept as a row, at the entry of the region. -/
theorem bias3 (c : Dev nD) :
    (fun q : Fin 64 => (W7 m ρ c (Proc.devRef .tc main_v67) : S1x64.Idx → EReal) (ix2 (0 : Fin 1) q))
      = fun q => (m ((c : Thread nD τ).loc main_arg9)) (ix1 q) := by
  have e : (W7 m ρ c (Proc.devRef .tc main_v67) : S1x64.Idx → EReal)
      = shapeCast S1x64 (m ((c : Thread nD τ).loc main_arg9)) shapeCasts_S64_S1x64 := by
    show StableHlo.after hostOps3 (W6 m ρ c) (Proc.devRef .tc main_v67) = _
    simp only [hostOps3]
    after_results_simp
    rw [Cert.KernelIdeal.CarryArgs.main_arg9_exit m ρ c]
    all_goals rfl
  rw [e]
  exact funext fun q => Cert.RowBias.castRow_apply _ _ q

/-- The next hidden array, at the exit of the region. -/
theorem hidden4 (c : Dev nD) :
    (W8 m ρ c (Proc.devRef .tc main_v68) : S100000x64.Idx → EReal)
      = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c (4 : Fin cfg3.W)).trans ?_
  refine (Cert.KernelIdeal.Layers3.final (V7 m ρ) c).trans ?_
  show layerNext (R := 100000) (K := 64) (N := 64) (W7 m ρ c (Proc.devRef .tc main_v66)) (W7 m ρ c (Proc.devRef .tc main_arg8))
      (fun q => (W7 m ρ c (Proc.devRef .tc main_v67) : S1x64.Idx → EReal) (ix2 (0 : Fin 1) q))
      (W7 m ρ c (Proc.devRef .tc main_v54)) = _
  rw [agg3 m ρ c, Cert.KernelIdeal.CarryArgs.main_arg8_entry m ρ c, bias3 m ρ c, Cert.KernelIdeal.CarryEdges.main_v54_W7 m ρ c, hidden3 m ρ c]
  exact (Cert.ReferenceIdeal.RefLayers.hidden4 _ _ _ _ _ _ _ _ _ _).symm

end Cert.KernelIdeal.Thread

end
-- ==== Proof.Region4.lean ====
/-
  Region 4: what its output array holds after the ten grid points.

  Grid point t stages rows 10000 t .. 10000 t + 9999 of the aggregated input [100000, 64] and of the previous hidden
  array [100000, 64], the whole weight matrix [64, 64] and the whole bias row [1, 64], and writes back the same rows of
  the output [100000, 64]. The body's one store is the thresholded affine image of the staged rows plus the staged rows
  of the previous hidden array, so what point t writes back is block t of the whole-array middle layer of the arrays as
  the region finds them. The ten blocks tile the output (row r lies in block r / 10000), so after the region the output
  array is that layer everywhere.
-/
import proofs.«121523_j35639638622631_1_alg».proof.Proof.Gen.KernelIdeal.Frame
import proofs.«121523_j35639638622631_1_alg».proof.Proof.LibLayerLaw
import Idealize.ShloMosaic.Lib.Pipeline.Value
import Idealize.ShloMosaic.Lib.ValueIdx

set_option maxRecDepth 16384

noncomputable section

open scoped BigOperators

namespace Cert.KernelIdeal.Layers4

open Cert.KernelIdeal Cert.KernelIdeal.Gen Cert.MeanNet Cert.DenseRow
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's stored value at entry (p, q) of a block: the thresholded affine image of row p of the staged rows, plus
    the previous hidden array's entry. -/
theorem pay_apply (x0 : Vec Ideal S10000x64 .f32) (x1 : Vec Ideal S64x64 .f32) (x2 : Vec Ideal S1x64 .f32)
    (x3 : Vec Ideal S10000x64 .f32) (p : Fin 10000) (q : Fin 64) :
    k4_pay1 (F := Ideal) x0 x1 x2 x3 (ix2 p q)
      = max (denseRow (fun k => x0 (ix2 p k)) (fun k c => x1 (ix2 k c)) (fun c => x2 (ix2 (0 : Fin 1) c)) q) 0
        + x3 (ix2 p q) := by
  show max (addf (matmul (DotDims.plain 10000 64 64) none (truncf .bf16 (shapeCast S10000x64 x0 shapeCasts_S10000x64_S10000x64) bitsLt_bf16_f32)
        (truncf .bf16 x1 bitsLt_bf16_f32) (constant (F := Ideal) S10000x64 .f32 0x00000000#32))
      (broadcastTo S10000x64 (shapeCast S1x64 x2 shapeCasts_S1x64_S1x64) broadcasts_S1x64_S10000x64) (ix2 p q))
    (broadcast (α := Ideal .f32) S10000x64 (Scalar.ofBits (F := Ideal) .f32 0x00000000#32) (ix2 p q))
    + shapeCast S10000x64 x3 shapeCasts_S10000x64_S10000x64 (ix2 p q) = _
  rw [shapeCast_self x3 shapeCasts_S10000x64_S10000x64]
  exact congrArg (· + x3 (ix2 p q)) (congrArg₂ max (kernelAffine_apply none x0 x1 x2 _ _ _ _ p q) (splatZero_apply _))

variable (V : (c : Dev nD) → (b : Ref sig .tc) → Buf (Elt Ideal) ((c : Thread nD τ).loc b))

/-- The printed index maps over the ten points: the row windows sit at block t, the weights and the bias at block 0. -/
theorem idx : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The array the region leaves, as one function of the arrays it finds. -/
abbrev G (c : Dev nD) : S100000x64.Idx → EReal :=
  layerNext (R := 100000) (K := 64) (N := 64) (V c main_v80) (V c main_arg10) (fun q => V c main_v81 (ix2 (0 : Fin 1) q)) (V c main_v68)

/-- What point t writes back is block t of the middle layer. -/
theorem flushed (c : Dev nD) (t : Fin cfg4.N) :
    (dat4 V c).flushed 4 t = ((cfg4.win 4).blk t).view.read (Elt Ideal) (G V c) := by
  show (cfg4.win 4).cut (grid4.coords t) ((dat4 V c).after 4 t) = _
  rw [after4_4]
  unfold out4_4
  rw [View.canon_unit_zero offsets_zero]
  simp only [View.ld_unit_zero (S := S10000x64) offsets_zero, View.ld_unit_zero (S := S64x64) offsets_zero,
    View.ld_unit_zero (S := S1x64) offsets_zero]
  obtain ⟨e0, e1, e2, e3, e4, e5, e6, e7, e8, e9⟩ := idx t
  funext j
  obtain ⟨p, q, rfl⟩ : ∃ (p : Fin 10000) (q : Fin 64), j = ix2 p q := ⟨j 0, j 1, eq_ix2 j⟩
  refine (pay_apply (iblk4 V c 0 t) (iblk4 V c 1 t) (iblk4 V c 2 t) (iblk4 V c 3 t) p q).trans ?_
  have ht : t.val < 10 := by
    have h := t.isLt
    have hN : grid4.N = 10 := N_4
    change t.val < grid4.N at h
    omega
  have hrow : t.val * 10000 + p.val < 100000 := by have := p.isLt; omega
  have hemb : ((cfg4.win 4).blk t).view.emb (ix2 p q) = ix2 (n0 := 100000) (n1 := 64) ⟨t.val * 10000 + p.val, hrow⟩ q := by
    funext a; apply Fin.ext
    match a with
    | ⟨0, _⟩ => show win4_4.index t (0 : Fin 2) * 10000 + 1 * p.val = t.val * 10000 + p.val; omega
    | ⟨1, _⟩ => show win4_4.index t (1 : Fin 2) * 64 + 1 * q.val = q.val; omega
  have h1 : (fun k : Fin 64 => iblk4 V c 0 t (ix2 p k))
      = fun k => V c main_v80 (ix2 (n0 := 100000) (n1 := 64) ⟨t.val * 10000 + p.val, hrow⟩ k) := funext fun k => by
    show V c main_v80 (((cfg4.win 0).blk t).view.emb (ix2 p k)) = _
    refine congrArg (V c main_v80) ?_
    funext a; apply Fin.ext
    match a with
    | ⟨0, _⟩ => show win4_0.index t (0 : Fin 2) * 10000 + 1 * p.val = t.val * 10000 + p.val; omega
    | ⟨1, _⟩ => show win4_0.index t (1 : Fin 2) * 64 + 1 * k.val = k.val; omega
  have h2 : (fun (k : Fin 64) (c' : Fin 64) => iblk4 V c 1 t (ix2 k c'))
      = fun k c' => V c main_arg10 (ix2 k c') := funext fun k => funext fun c' => by
    show V c main_arg10 (((cfg4.win 1).blk t).view.emb (ix2 k c')) = _
    refine congrArg (V c main_arg10) ?_
    funext a; apply Fin.ext
    match a with
    | ⟨0, _⟩ => show win4_1.index t (0 : Fin 2) * 64 + 1 * k.val = k.val; omega
    | ⟨1, _⟩ => show win4_1.index t (1 : Fin 2) * 64 + 1 * c'.val = c'.val; omega
  have h3 : (fun c' : Fin 64 => iblk4 V c 2 t (ix2 (0 : Fin 1) c'))
      = fun c' => V c main_v81 (ix2 (0 : Fin 1) c') := funext fun c' => by
    show V c main_v81 (((cfg4.win 2).blk t).view.emb (ix2 (0 : Fin 1) c')) = _
    refine congrArg (V c main_v81) ?_
    funext a; apply Fin.ext
    match a with
    | ⟨0, _⟩ => show win4_2.index t (0 : Fin 2) * 1 + 1 * 0 = 0; omega
    | ⟨1, _⟩ => show win4_2.index t (1 : Fin 2) * 64 + 1 * c'.val = c'.val; omega
  have h4 : iblk4 V c 3 t (ix2 p q)
      = V c main_v68 (ix2 (n0 := 100000) (n1 := 64) ⟨t.val * 10000 + p.val, hrow⟩ q) := by
    show V c main_v68 (((cfg4.win 3).blk t).view.emb (ix2 p q)) = _
    refine congrArg (V c main_v68) ?_
    funext a; apply Fin.ext
    match a with
    | ⟨0, _⟩ => show win4_3.index t (0 : Fin 2) * 10000 + 1 * p.val = t.val * 10000 + p.val; omega
    | ⟨1, _⟩ => show win4_3.index t (1 : Fin 2) * 64 + 1 * q.val = q.val; omega
  show _ = max (affine (R := 100000) (K := 64) (N := 64) (V c main_v80) (V c main_arg10) (fun q => V c main_v81 (ix2 (0 : Fin 1) q))
    (((cfg4.win 4).blk t).view.emb (ix2 p q))) 0 + V c main_v68 (((cfg4.win 4).blk t).view.emb (ix2 p q))
  rw [hemb, affine_ix2, h1, h2, h3, h4]

/-- An index of the output array is in point t's block iff each coordinate is in the block's range on its axis. -/
theorem mem_blk (t : Fin cfg4.N) (i : S100000x64.Idx) :
    i ∈ ((cfg4.win 4).blk t).view.set ↔ ∀ a : Fin 2, win4_4.index t a * S10000x64.size a ≤ (i a).val
      ∧ (i a).val < win4_4.index t a * S10000x64.size a + S10000x64.size a := by
  show i ∈ ((View.whole main_v82).slice (win4_4.rect t)).set ↔ _
  rw [View.set_slice_whole, Rect.mem_set_unit]
  exact Iff.rfl

/-- Every index of the output array lies in the block of the point its row selects. -/
theorem cover (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hN : grid4.N = 10 := N_4
  have hlt : (i 0).val / 10000 < grid4.N := by omega
  refine ⟨⟨(i 0).val / 10000, hlt⟩, flush4_4 _, ?_⟩
  rw [mem_blk]
  obtain ⟨-, -, -, -, -, -, -, -, e8, e9⟩ := idx ⟨(i 0).val / 10000, hlt⟩
  intro a
  match a with
  | ⟨0, _⟩ =>
    show win4_4.index ⟨(i 0).val / 10000, hlt⟩ (0 : Fin 2) * 10000 ≤ (i 0).val
      ∧ (i 0).val < win4_4.index ⟨(i 0).val / 10000, hlt⟩ (0 : Fin 2) * 10000 + 10000
    rw [e8]; show (i 0).val / 10000 * 10000 ≤ (i 0).val ∧ (i 0).val < (i 0).val / 10000 * 10000 + 10000; omega
  | ⟨1, _⟩ =>
    show win4_4.index ⟨(i 0).val / 10000, hlt⟩ (1 : Fin 2) * 64 ≤ (i 1).val
      ∧ (i 1).val < win4_4.index ⟨(i 0).val / 10000, hlt⟩ (1 : Fin 2) * 64 + 64
    rw [e9]; omega

/-- After the region its output array is the middle layer of the arrays the region found. -/
theorem final (c : Dev nD) : (dat4 V c).arrAt 4 cfg4.N = G V c :=
  (dat4 V c).arrAt_eq_of_cover 4 (G V c) (fun t _ => flushed V c t) cover

end Cert.KernelIdeal.Layers4

end
-- ==== Proof.Thread4.lean ====
/-
  The kernel program through its fifth region, against the reference's stages.

  The stretch before the region gathers the previous hidden array along the edges' sources, adds the gathered rows into
  their destinations and scales each row by its node's inverse degree: the same operations as the reference's, on the
  same hidden array (the previous module), the same edge lists and the same inverse degrees (carried unchanged from the
  first stretch), so the same aggregate. The region then leaves the middle layer of that aggregate plus the previous
  hidden array, which is the reference's next hidden array.
-/
import proofs.«121523_j35639638622631_1_alg».proof.Proof.Gen.KernelIdeal.Frame
import proofs.«121523_j35639638622631_1_alg».proof.Proof.Gen.ReferenceIdeal.Read
import proofs.«121523_j35639638622631_1_alg».proof.Proof.RefLayers
import proofs.«121523_j35639638622631_1_alg».proof.Proof.CarryEdges
import proofs.«121523_j35639638622631_1_alg».proof.Proof.CarryArgs
import proofs.«121523_j35639638622631_1_alg».proof.Proof.LibRowBias
import proofs.«121523_j35639638622631_1_alg».proof.Proof.Thread3
import proofs.«121523_j35639638622631_1_alg».proof.Proof.Region4
import Idealize.ShloMosaic.Lib.StableHlo.Run

set_option maxRecDepth 16384

noncomputable section

namespace Cert.KernelIdeal.Thread

open Cert.KernelIdeal Cert.KernelIdeal.Gen Cert.MeanNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 8000000 in
/-- The mean-aggregated previous hidden array, at the entry of the region. -/
theorem agg4 (c : Dev nD) :
    (W9 m ρ c (Proc.devRef .tc main_v80) : S100000x64.Idx → EReal)
      = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps4 (W8 m ρ c) (Proc.devRef .tc main_v80) = _
  simp only [hostOps4]
  after_results_simp
  rw [hidden4 m ρ c, Cert.KernelIdeal.CarryEdges.main_v1_at8 m ρ c, Cert.KernelIdeal.CarryEdges.main_v3_at8 m ρ c, Cert.KernelIdeal.CarryEdges.main_v12_at8 m ρ c,
    rows_W1 m ρ c, cols_W1 m ρ c, deg_W1 m ρ c]
  all_goals rfl

set_option maxHeartbeats 8000000 in
/-- The layer's bias, kept as a row, at the entry of the region. -/
theorem bias4 (c : Dev nD) :
    (fun q : Fin 64 => (W9 m ρ c (Proc.devRef .tc main_v81) : S1x64.Idx → EReal) (ix2 (0 : Fin 1) q))
      = fun q => (m ((c : Thread nD τ).loc main_arg11)) (ix1 q) := by
  have e : (W9 m ρ c (Proc.devRef .tc main_v81) : S1x64.Idx → EReal)
      = shapeCast S1x64 (m ((c : Thread nD τ).loc main_arg11)) shapeCasts_S64_S1x64 := by
    show StableHlo.after hostOps4 (W8 m ρ c) (Proc.devRef .tc main_v81) = _
    simp only [hostOps4]
    after_results_simp
    rw [Cert.KernelIdeal.CarryArgs.main_arg11_exit m ρ c]
    all_goals rfl
  rw [e]
  exact funext fun q => Cert.RowBias.castRow_apply _ _ q

/-- The next hidden array, at the exit of the region. -/
theorem hidden5 (c : Dev nD) :
    (W10 m ρ c (Proc.devRef .tc main_v82) : S100000x64.Idx → EReal)
      = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c (4 : Fin cfg4.W)).trans ?_
  refine (Cert.KernelIdeal.Layers4.final (V9 m ρ) c).trans ?_
  show layerNext (R := 100000) (K := 64) (N := 64) (W9 m ρ c (Proc.devRef .tc main_v80)) (W9 m ρ c (Proc.devRef .tc main_arg10))
      (fun q => (W9 m ρ c (Proc.devRef .tc main_v81) : S1x64.Idx → EReal) (ix2 (0 : Fin 1) q))
      (W9 m ρ c (Proc.devRef .tc main_v68)) = _
  rw [agg4 m ρ c, Cert.KernelIdeal.CarryArgs.main_arg10_entry m ρ c, bias4 m ρ c, Cert.KernelIdeal.CarryEdges.main_v68_W9 m ρ c, hidden4 m ρ c]
  exact (Cert.ReferenceIdeal.RefLayers.hidden5 _ _ _ _ _ _ _ _ _ _ _ _).symm

end Cert.KernelIdeal.Thread

end
-- ==== Proof.Region5.lean ====
/-
  The last region: what its output array holds after the ten grid points.

  Grid point t stages rows 10000 t .. 10000 t + 9999 of the aggregated input [100000, 64], the whole weight column
  [64, 1] and the one-entry bias [1, 1], and writes back rows 10000 t .. 10000 t + 9999 of the output [100000, 1]. The
  body's one store is the affine image of the staged rows, with no threshold, so what point t writes back is block t of
  the whole-array affine map of the arrays as the region finds them. The ten blocks tile the output, so after the region
  the output array is that map everywhere.
-/
import proofs.«121523_j35639638622631_1_alg».proof.Proof.Gen.KernelIdeal.Frame
import proofs.«121523_j35639638622631_1_alg».proof.Proof.LibLayerLaw
import Idealize.ShloMosaic.Lib.Pipeline.Value
import Idealize.ShloMosaic.Lib.ValueIdx

set_option maxRecDepth 16384

noncomputable section

open scoped BigOperators

namespace Cert.KernelIdeal.Layers5

open Cert.KernelIdeal Cert.KernelIdeal.Gen Cert.MeanNet Cert.DenseRow
open Idealize.ShloMosaic Idealize.ShloMosaic.TcCoe Idealize.ShloMosaic.ValueIdx Idealize.SL.Sem
open Idealize.ShloMosaic.Pipeline (Dat Cfg Window)

theorem offsets_zero : (![0, 0] : Fin 2 → Nat) = fun _ => 0 := funext fun a => by fin_cases a <;> rfl

/-- The body's stored value at entry (p, q) of a block: the affine image of row p of the staged rows. -/
theorem pay_apply (x0 : Vec Ideal S10000x64 .f32) (x1 : Vec Ideal S64x1 .f32) (x2 : Vec Ideal S1x1 .f32)
    (p : Fin 10000) (q : Fin 1) :
    k5_pay1 (F := Ideal) x0 x1 x2 (ix2 p q)
      = denseRow (fun k => x0 (ix2 p k)) (fun k c => x1 (ix2 k c)) (fun c => x2 (ix2 (0 : Fin 1) c)) q := by
  show addf (matmul (DotDims.plain 10000 64 1) none (truncf .bf16 (shapeCast S10000x64 x0 shapeCasts_S10000x64_S10000x64) bitsLt_bf16_f32)
        (truncf .bf16 x1 bitsLt_bf16_f32) (constant (F := Ideal) S10000x1 .f32 0x00000000#32))
      (broadcastTo S10000x1 (shapeCast S1x1 x2 shapeCasts_S1x1_S1x1) broadcasts_S1x1_S10000x1) (ix2 p q) = _
  exact kernelAffine_apply none x0 x1 x2 _ _ _ _ p q

variable (V : (c : Dev nD) → (b : Ref sig .tc) → Buf (Elt Ideal) ((c : Thread nD τ).loc b))

/-- The printed index maps over the ten points: the row windows sit at block t, the weights and the bias at block 0. -/
theorem idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The array the region leaves, as one function of the arrays it finds. -/
abbrev G (c : Dev nD) : S100000x1.Idx → EReal :=
  affine (R := 100000) (K := 64) (N := 1) (V c main_v94) (V c main_arg12) (fun q => V c main_v95 (ix2 (0 : Fin 1) q))

/-- What point t writes back is block t of the affine map. -/
theorem flushed (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero offsets_zero]
  simp only [View.ld_unit_zero (S := S10000x64) offsets_zero, View.ld_unit_zero (S := S64x1) offsets_zero,
    View.ld_unit_zero (S := S1x1) offsets_zero]
  obtain ⟨e0, e1, e2, e3, e4, e5, e6, e7⟩ := idx t
  funext j
  obtain ⟨p, q, rfl⟩ : ∃ (p : Fin 10000) (q : Fin 1), j = ix2 p q := ⟨j 0, j 1, eq_ix2 j⟩
  refine (pay_apply (iblk5 V c 0 t) (iblk5 V c 1 t) (iblk5 V c 2 t) p q).trans ?_
  have ht : t.val < 10 := by
    have h := t.isLt
    have hN : grid5.N = 10 := N_5
    change t.val < grid5.N at h
    omega
  have hrow : t.val * 10000 + p.val < 100000 := by have := p.isLt; omega
  have hemb : ((cfg5.win 3).blk t).view.emb (ix2 p q) = ix2 (n0 := 100000) (n1 := 1) ⟨t.val * 10000 + p.val, hrow⟩ q := by
    funext a; apply Fin.ext
    match a with
    | ⟨0, _⟩ => show win5_3.index t (0 : Fin 2) * 10000 + 1 * p.val = t.val * 10000 + p.val; omega
    | ⟨1, _⟩ => show win5_3.index t (1 : Fin 2) * 1 + 1 * q.val = q.val; omega
  have h1 : (fun k : Fin 64 => iblk5 V c 0 t (ix2 p k))
      = fun k => V c main_v94 (ix2 (n0 := 100000) (n1 := 64) ⟨t.val * 10000 + p.val, hrow⟩ k) := funext fun k => by
    show V c main_v94 (((cfg5.win 0).blk t).view.emb (ix2 p k)) = _
    refine congrArg (V c main_v94) ?_
    funext a; apply Fin.ext
    match a with
    | ⟨0, _⟩ => show win5_0.index t (0 : Fin 2) * 10000 + 1 * p.val = t.val * 10000 + p.val; omega
    | ⟨1, _⟩ => show win5_0.index t (1 : Fin 2) * 64 + 1 * k.val = k.val; omega
  have h2 : (fun (k : Fin 64) (c' : Fin 1) => iblk5 V c 1 t (ix2 k c'))
      = fun k c' => V c main_arg12 (ix2 k c') := funext fun k => funext fun c' => by
    show V c main_arg12 (((cfg5.win 1).blk t).view.emb (ix2 k c')) = _
    refine congrArg (V c main_arg12) ?_
    funext a; apply Fin.ext
    match a with
    | ⟨0, _⟩ => show win5_1.index t (0 : Fin 2) * 64 + 1 * k.val = k.val; omega
    | ⟨1, _⟩ => show win5_1.index t (1 : Fin 2) * 1 + 1 * c'.val = c'.val; omega
  have h3 : (fun c' : Fin 1 => iblk5 V c 2 t (ix2 (0 : Fin 1) c'))
      = fun c' => V c main_v95 (ix2 (0 : Fin 1) c') := funext fun c' => by
    show V c main_v95 (((cfg5.win 2).blk t).view.emb (ix2 (0 : Fin 1) c')) = _
    refine congrArg (V c main_v95) ?_
    funext a; apply Fin.ext
    match a with
    | ⟨0, _⟩ => show win5_2.index t (0 : Fin 2) * 1 + 1 * 0 = 0; omega
    | ⟨1, _⟩ => show win5_2.index t (1 : Fin 2) * 1 + 1 * c'.val = c'.val; omega
  show _ = affine (R := 100000) (K := 64) (N := 1) (V c main_v94) (V c main_arg12) (fun q => V c main_v95 (ix2 (0 : Fin 1) q))
    (((cfg5.win 3).blk t).view.emb (ix2 p q))
  rw [hemb, affine_ix2, h1, h2, h3]

/-- An index of the output array is in point t's block iff each coordinate is in the block's range on its axis. -/
theorem mem_blk (t : Fin cfg5.N) (i : S100000x1.Idx) :
    i ∈ ((cfg5.win 3).blk t).view.set ↔ ∀ a : Fin 2, win5_3.index t a * S10000x1.size a ≤ (i a).val
      ∧ (i a).val < win5_3.index t a * S10000x1.size a + S10000x1.size a := by
  show i ∈ ((View.whole main_v96).slice (win5_3.rect t)).set ↔ _
  rw [View.set_slice_whole, Rect.mem_set_unit]
  exact Iff.rfl

/-- Every index of the output array lies in the block of the point its row selects. -/
theorem cover (i : S100000x1.Idx) :
    ∃ t : Fin cfg5.N, (cfg5.win 3).flush t = true ∧ i ∈ ((cfg5.win 3).blk t).view.set := by
  have hi0 : (i 0).val < 100000 := (i 0).isLt
  have hi1 : (i 1).val < 1 := (i 1).isLt
  have hN : grid5.N = 10 := N_5
  have hlt : (i 0).val / 10000 < grid5.N := by omega
  refine ⟨⟨(i 0).val / 10000, hlt⟩, flush5_3 _, ?_⟩
  rw [mem_blk]
  obtain ⟨-, -, -, -, -, -, e6, e7⟩ := idx ⟨(i 0).val / 10000, hlt⟩
  intro a
  match a with
  | ⟨0, _⟩ =>
    show win5_3.index ⟨(i 0).val / 10000, hlt⟩ (0 : Fin 2) * 10000 ≤ (i 0).val
      ∧ (i 0).val < win5_3.index ⟨(i 0).val / 10000, hlt⟩ (0 : Fin 2) * 10000 + 10000
    rw [e6]; show (i 0).val / 10000 * 10000 ≤ (i 0).val ∧ (i 0).val < (i 0).val / 10000 * 10000 + 10000; omega
  | ⟨1, _⟩ =>
    show win5_3.index ⟨(i 0).val / 10000, hlt⟩ (1 : Fin 2) * 1 ≤ (i 1).val
      ∧ (i 1).val < win5_3.index ⟨(i 0).val / 10000, hlt⟩ (1 : Fin 2) * 1 + 1
    rw [e7]; omega

/-- After the region its output array is the affine map of the arrays the region found. -/
theorem final (c : Dev nD) : (dat5 V c).arrAt 3 cfg5.N = G V c :=
  (dat5 V c).arrAt_eq_of_cover 3 (G V c) (fun t _ => flushed V c t) cover

end Cert.KernelIdeal.Layers5

end
-- ==== Proof.Thread5.lean ====
/-
  The kernel program through its last region and its last stretch, against the reference's stages.

  The stretch before the last region aggregates the fifth hidden array exactly as the reference does. The region leaves
  the affine map of that aggregate under the last weight column and bias, which is the reference's output column, and
  the one operation after the region reshapes the column [100000, 1] to the flat result [100000], as the reference's
  last operation does. So the kernel program's result is the reference's result, as one function of the argument arrays.
-/
import proofs.«121523_j35639638622631_1_alg».proof.Proof.Gen.KernelIdeal.Frame
import proofs.«121523_j35639638622631_1_alg».proof.Proof.Gen.ReferenceIdeal.Read
import proofs.«121523_j35639638622631_1_alg».proof.Proof.RefLayers
import proofs.«121523_j35639638622631_1_alg».proof.Proof.CarryEdges
import proofs.«121523_j35639638622631_1_alg».proof.Proof.CarryArgs
import proofs.«121523_j35639638622631_1_alg».proof.Proof.LibRowBias
import proofs.«121523_j35639638622631_1_alg».proof.Proof.Thread4
import proofs.«121523_j35639638622631_1_alg».proof.Proof.Region5
import Idealize.ShloMosaic.Lib.StableHlo.Run

set_option maxRecDepth 16384

noncomputable section

namespace Cert.KernelIdeal.Thread

open Cert.KernelIdeal Cert.KernelIdeal.Gen Cert.MeanNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 8000000 in
/-- The mean-aggregated fifth hidden array, at the entry of the last region. -/
theorem agg5 (c : Dev nD) :
    (W11 m ρ c (Proc.devRef .tc main_v94) : S100000x64.Idx → EReal)
      = Cert.ReferenceIdeal.Read.val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps5 (W10 m ρ c) (Proc.devRef .tc main_v94) = _
  simp only [hostOps5]
  after_results_simp
  rw [hidden5 m ρ c, Cert.KernelIdeal.CarryEdges.main_v1_at10 m ρ c, Cert.KernelIdeal.CarryEdges.main_v3_at10 m ρ c, Cert.KernelIdeal.CarryEdges.main_v12_at10 m ρ c,
    rows_W1 m ρ c, cols_W1 m ρ c, deg_W1 m ρ c]
  all_goals rfl

set_option maxHeartbeats 8000000 in
/-- The last bias, kept as a one-entry row, at the entry of the last region. -/
theorem bias5 (c : Dev nD) :
    (fun q : Fin 1 => (W11 m ρ c (Proc.devRef .tc main_v95) : S1x1.Idx → EReal) (ix2 (0 : Fin 1) q))
      = fun q => (m ((c : Thread nD τ).loc main_arg13)) (ix1 q) := by
  have e : (W11 m ρ c (Proc.devRef .tc main_v95) : S1x1.Idx → EReal)
      = shapeCast S1x1 (m ((c : Thread nD τ).loc main_arg13)) shapeCasts_S1_S1x1 := by
    show StableHlo.after hostOps5 (W10 m ρ c) (Proc.devRef .tc main_v95) = _
    simp only [hostOps5]
    after_results_simp
    rw [Cert.KernelIdeal.CarryArgs.main_arg13_exit m ρ c]
    all_goals rfl
  rw [e]
  exact funext fun q => Cert.RowBias.castRow_apply _ _ q

/-- The output column, at the exit of the last region. -/
theorem column (c : Dev nD) :
    (W12 m ρ c (Proc.devRef .tc main_v96) : S100000x1.Idx → EReal)
      = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W12_arr m ρ c (3 : Fin cfg5.W)).trans ?_
  refine (Cert.KernelIdeal.Layers5.final (V11 m ρ) c).trans ?_
  show affine (R := 100000) (K := 64) (N := 1) (W11 m ρ c (Proc.devRef .tc main_v94)) (W11 m ρ c (Proc.devRef .tc main_arg12))
      (fun q => (W11 m ρ c (Proc.devRef .tc main_v95) : S1x1.Idx → EReal) (ix2 (0 : Fin 1) q)) = _
  rw [agg5 m ρ c, Cert.KernelIdeal.CarryArgs.main_arg12_entry m ρ c, bias5 m ρ c]
  exact (Cert.ReferenceIdeal.RefLayers.output _ _ _ _ _ _ _ _ _ _ _ _ _ _).symm

set_option maxHeartbeats 8000000 in
/-- The program's result, after the last stretch: the reference's result as a function of the argument arrays. -/
theorem result (c : Dev nD) :
    (W13 m ρ c (Proc.devRef .tc main_v97) : S100000.Idx → EReal)
      = Cert.ReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps6 (W12 m ρ c) (Proc.devRef .tc main_v97) = _
  simp only [hostOps6]
  after_results_simp
  rw [column m ρ c]
  all_goals rfl

end Cert.KernelIdeal.Thread

end
-- ==== Proof.lean ====
/-
  Six rounds of mean aggregation over a graph of 100000 nodes and 1200000 edges, each followed by a dense layer: the
  kernel program against its plain reference, as extended reals.

  Both programs compute, from the node features x, the edge array and six weight matrices and biases,

      deg_inv = 1 / max (number of edges into each node) 1
      agg h   = (sum over the edges into a node of h at the edge's source) * deg_inv
      h1 = max (agg x  W0 + b0) 0
      hk+1 = max (agg hk Wk + bk) 0 + hk          (k = 1 .. 4)
      out = (agg h5 W5 + b5), flattened.

  The two programs make the same host operations for deg_inv and for every agg, in the same order. They differ only in
  the dense layers: the reference contracts the whole [100000, K] aggregate with the weights, lays the bias down the
  rows, thresholds against a zero array and adds the previous hidden array, all as host operations; the kernel program
  runs a pipelined region over ten blocks of 10000 rows, each block a matrix-unit product of operands narrowed to
  sixteen bits (the identity on the extended reals) plus the bias row, a maximum against a splat zero and the residual
  block. Entry (p, c) of either is the same sum over k of products plus a bias entry, thresholded, plus a residual
  entry: only sums and products, in some order, so the two agree on all extended reals and the finiteness of the inputs
  is not used.

  The modules: LibLayerLaw states a layer as one whole-array function and proves both spellings equal to it; Region0 ..
  Region5 show that after each region its output array is that function of the arrays the region found (what a grid
  point writes back is one block of it, and the ten blocks tile the array); RefLayers reads the reference's hidden
  arrays as the same functions of its aggregates; CarryEdges and CarryArgs carry the edge lists, the inverse degrees,
  the weights and the biases unchanged to where they are read; Thread0 .. Thread5 walk the kernel program segment by
  segment and find at each region's exit the reference's hidden array; KernelRun is the kernel program's run with its
  result named. Below, the three frames, the trivial ledger, and the two runs side by side.
-/
import proofs.«121523_j35639638622631_1_alg».proof.Defs
import proofs.«121523_j35639638622631_1_alg».proof.Proof.Gen.Kernel
import proofs.«121523_j35639638622631_1_alg».proof.Proof.Gen.Kernel.Skeleton
import proofs.«121523_j35639638622631_1_alg».proof.Proof.Gen.Kernel.Launch
import proofs.«121523_j35639638622631_1_alg».proof.Proof.Gen.Kernel.Points
import proofs.«121523_j35639638622631_1_alg».proof.Proof.Gen.Kernel.Frame
import proofs.«121523_j35639638622631_1_alg».proof.Proof.Gen.KernelIdeal
import proofs.«121523_j35639638622631_1_alg».proof.Proof.Gen.KernelIdeal.Skeleton
import proofs.«121523_j35639638622631_1_alg».proof.Proof.Gen.KernelIdeal.Launch
import proofs.«121523_j35639638622631_1_alg».proof.Proof.Gen.KernelIdeal.Points
import proofs.«121523_j35639638622631_1_alg».proof.Proof.Gen.KernelIdeal.Frame
import proofs.«121523_j35639638622631_1_alg».proof.Proof.Gen.ReferenceIdeal
import proofs.«121523_j35639638622631_1_alg».proof.Proof.Gen.ReferenceIdeal.Run
import proofs.«121523_j35639638622631_1_alg».proof.Proof.Gen.ReferenceIdeal.Read
import proofs.«121523_j35639638622631_1_alg».proof.Proof.Gen.Pre_finite_inputs
import proofs.«121523_j35639638622631_1_alg».proof.Proof.KernelRun
import proofs.«121523_j35639638622631_1_alg».proof.Proof.Thread5
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : @Cert.frame_Kernel Cert.Kernel.Gen.facts Cert.Pre_finite_inputs.Gen.facts :=
  fun m ρ _ => Cert.Kernel.Gen.frame m ρ

/-- So does the idealized kernel program. -/
theorem frame_kernelIdeal : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- Both idealized programs end with the network's output as one function of the argument arrays: the kernel program
    by its run with the result named and the walk through its segments, the reference by its run read back through
    its stages, from arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v118 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Thread.result m ρ c), (h c).2⟩)
      (Cert.KernelIdeal.RunResult.run_result (F := Ideal) m ρ)
  · refine (θ_run Cert.ReferenceIdeal.defs _ _).mono
      (fun r h c => ⟨((h c).1.trans (Cert.ReferenceIdeal.Read.val_main_v118_eq m' c)).trans ?_, (h c).2⟩)
      (Cert.ReferenceIdeal.Value.run (F := Ideal) m' ρ')
    obtain ⟨e0, e1, e2, e3, e4, e5, e6, e7, e8, e9, e10, e11, e12, e13⟩ := hagree c
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
